-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1728x24 : Shape := ⟨3, ![4096, 1728, 24]⟩
abbrev S4096x1x24 : Shape := ⟨3, ![4096, 1, 24]⟩
abbrev S3504x512 : Shape := ⟨2, ![3504, 512]⟩
abbrev S512x2 : Shape := ⟨2, ![512, 2]⟩
abbrev S_ : Shape := ⟨0, ![]⟩

class Facts : Prop where
  bcast_S_S4096x1728x24 : S_.BroadcastsInDim S4096x1728x24 (![] : Fin 0 → Fin S4096x1728x24.rank)
  reducesTo_S4096x1728x24_S_d0_1_2 : S4096x1728x24.ReducesTo [0, 1, 2] S_
  h_S_ : 0 < S_.numel
  bcast_S_S4096x1x24 : S_.BroadcastsInDim S4096x1x24 (![] : Fin 0 → Fin S4096x1x24.rank)
  reducesTo_S4096x1x24_S_d0_1_2 : S4096x1x24.ReducesTo [0, 1, 2] S_
  bcast_S_S3504x512 : S_.BroadcastsInDim S3504x512 (![] : Fin 0 → Fin S3504x512.rank)
  reducesTo_S3504x512_S_d0_1 : S3504x512.ReducesTo [0, 1] S_
  bcast_S_S512x2 : S_.BroadcastsInDim S512x2 (![] : Fin 0 → Fin S512x2.rank)
  reducesTo_S512x2_S_d0_1 : S512x2.ReducesTo [0, 1] S_

variable [Facts]

def fn_part1 {F : FTy → Type} [FloatOps F] (main_arg4 : FVec F S512x2 .f32) (main_v13 : IVec S_ 1) (main_v16 : IVec S3504x512 1) : IVec S_ 1 :=
  let main_c_5 : IVec S_ 1 := constantI S_ 1 1#1
  let main_v17 : IVec S_ 1 := (fun x v => Host.reduce IntOp.andi x v reducesTo_S3504x512_S_d0_1 h_S_) main_v16 main_c_5
  let main_v18 : IVec S_ 1 := andi main_v13 main_v17
  let main_v19 : FVec F S512x2 .f32 := Host.absf main_arg4
  let main_cst_6 : FVec F S_ .f32 := constant S_ .f32 0x7F800000#32
  let main_v20 : FVec F S512x2 .f32 := broadcastInDim S512x2 ![] bcast_S_S512x2 main_cst_6
  let main_v21 : IVec S512x2 1 := cmpf .olt main_v19 main_v20
  let main_c_7 : IVec S_ 1 := constantI S_ 1 1#1
  let main_v22 : IVec S_ 1 := (fun x v => Host.reduce IntOp.andi x v reducesTo_S512x2_S_d0_1 h_S_) main_v21 main_c_7
  let main_v23 : IVec S_ 1 := andi main_v18 main_v22
  main_v23

def fn {F : FTy → Type} [FloatOps F] (main_arg0 : FVec F S4096x1728x24 .f32) (main_arg1 : FVec F S4096x1x24 .f32) (main_arg2 : FVec F S4096x1x24 .f32) (main_arg3 : FVec F S3504x512 .f32) (main_arg4 : FVec F S512x2 .f32) : IVec S_ 1 :=
  let main_v0 : FVec F S4096x1728x24 .f32 := Host.absf main_arg0
  let main_cst : FVec F S_ .f32 := constant S_ .f32 0x7F800000#32
  let main_v1 : FVec F S4096x1728x24 .f32 := broadcastInDim S4096x1728x24 ![] bcast_S_S4096x1728x24 main_cst
  let main_v2 : IVec S4096x1728x24 1 := cmpf .olt main_v0 main_v1
  let main_c : IVec S_ 1 := constantI S_ 1 1#1
  let main_v3 : IVec S_ 1 := (fun x v => Host.reduce IntOp.andi x v reducesTo_S4096x1728x24_S_d0_1_2 h_S_) main_v2 main_c
  let main_v4 : FVec F S4096x1x24 .f32 := Host.absf main_arg1
  let main_cst_0 : FVec F S_ .f32 := constant S_ .f32 0x7F800000#32
  let main_v5 : FVec F S4096x1x24 .f32 := broadcastInDim S4096x1x24 ![] bcast_S_S4096x1x24 main_cst_0
  let main_v6 : IVec S4096x1x24 1 := cmpf .olt main_v4 main_v5
  let main_c_1 : IVec S_ 1 := constantI S_ 1 1#1
  let main_v7 : IVec S_ 1 := (fun x v => Host.reduce IntOp.andi x v reducesTo_S4096x1x24_S_d0_1_2 h_S_) main_v6 main_c_1
  let main_v8 : IVec S_ 1 := andi main_v3 main_v7
  let main_v9 : FVec F S4096x1x24 .f32 := Host.absf main_arg2
  let main_cst_2 : FVec F S_ .f32 := constant S_ .f32 0x7F800000#32
  let main_v10 : FVec F S4096x1x24 .f32 := broadcastInDim S4096x1x24 ![] bcast_S_S4096x1x24 main_cst_2
  let main_v11 : IVec S4096x1x24 1 := cmpf .olt main_v9 main_v10
  let main_c_3 : IVec S_ 1 := constantI S_ 1 1#1
  let main_v12 : IVec S_ 1 := (fun x v => Host.reduce IntOp.andi x v reducesTo_S4096x1x24_S_d0_1_2 h_S_) main_v11 main_c_3
  let main_v13 : IVec S_ 1 := andi main_v8 main_v12
  let main_v14 : FVec F S3504x512 .f32 := Host.absf main_arg3
  let main_cst_4 : FVec F S_ .f32 := constant S_ .f32 0x7F800000#32
  let main_v15 : FVec F S3504x512 .f32 := broadcastInDim S3504x512 ![] bcast_S_S3504x512 main_cst_4
  let main_v16 : IVec S3504x512 1 := cmpf .olt main_v14 main_v15
  fn_part1 (F := F) main_arg4 main_v13 main_v16
-- ==== Kernel.lean ====
abbrev S4096x1728x24 : Shape := ⟨3, ![4096, 1728, 24]⟩
abbrev S4096x1x24 : Shape := ⟨3, ![4096, 1, 24]⟩
abbrev S3504x512 : Shape := ⟨2, ![3504, 512]⟩
abbrev S512x2 : Shape := ⟨2, ![512, 2]⟩
abbrev S72x4096x24 : Shape := ⟨3, ![72, 4096, 24]⟩
abbrev S512x24x24 : Shape := ⟨3, ![512, 24, 24]⟩
abbrev S1x512x24 : Shape := ⟨3, ![1, 512, 24]⟩
abbrev S512x24 : Shape := ⟨2, ![512, 24]⟩
abbrev S512x1x24 : Shape := ⟨3, ![512, 1, 24]⟩
abbrev S4096x72x24 : Shape := ⟨3, ![4096, 72, 24]⟩
abbrev S4096x146x24 : Shape := ⟨3, ![4096, 146, 24]⟩
abbrev S4096x3504 : Shape := ⟨2, ![4096, 3504]⟩
abbrev S4096x2 : Shape := ⟨2, ![4096, 2]⟩
abbrev S512x3504 : Shape := ⟨2, ![512, 3504]⟩
abbrev S512x512 : Shape := ⟨2, ![512, 512]⟩

abbrev nBuf : Space → Nat
  | .hbm => 14
  | .vmem => 12
  | .smem => 0
  | _ => 0

abbrev bufTy : (tb : Table) → Fin (tcTables nBuf tb) → BufTy
  | .hbm, ⟨0, _⟩ => ⟨S4096x1728x24, .f32⟩
  | .hbm, ⟨1, _⟩ => ⟨S4096x1x24, .f32⟩
  | .hbm, ⟨2, _⟩ => ⟨S4096x1x24, .f32⟩
  | .hbm, ⟨3, _⟩ => ⟨S3504x512, .f32⟩
  | .hbm, ⟨4, _⟩ => ⟨S512x2, .f32⟩
  | .hbm, ⟨5, _⟩ => ⟨S72x4096x24, .f32⟩
  | .hbm, ⟨6, _⟩ => ⟨S72x4096x24, .f32⟩
  | .hbm, ⟨7, _⟩ => ⟨S72x4096x24, .f32⟩
  | .hbm, ⟨8, _⟩ => ⟨S4096x72x24, .f32⟩
  | .hbm, ⟨9, _⟩ => ⟨S72x4096x24, .f32⟩
  | .hbm, ⟨10, _⟩ => ⟨S4096x72x24, .f32⟩
  | .hbm, ⟨11, _⟩ => ⟨S4096x146x24, .f32⟩
  | .hbm, ⟨12, _⟩ => ⟨S4096x3504, .f32⟩
  | .hbm, ⟨13, _⟩ => ⟨S4096x2, .f32⟩
  | .local _ .vmem, ⟨0, _⟩ => ⟨S512x24x24, .f32⟩
  | .local _ .vmem, ⟨1, _⟩ => ⟨S512x24x24, .f32⟩
  | .local _ .vmem, ⟨2, _⟩ => ⟨S1x512x24, .f32⟩
  | .local _ .vmem, ⟨3, _⟩ => ⟨S1x512x24, .f32⟩
  | .local _ .vmem, ⟨4, _⟩ => ⟨S1x512x24, .f32⟩
  | .local _ .vmem, ⟨5, _⟩ => ⟨S1x512x24, .f32⟩
  | .local _ .vmem, ⟨6, _⟩ => ⟨S512x3504, .f32⟩
  | .local _ .vmem, ⟨7, _⟩ => ⟨S512x3504, .f32⟩
  | .local _ .vmem, ⟨8, _⟩ => ⟨S3504x512, .f32⟩
  | .local _ .vmem, ⟨9, _⟩ => ⟨S512x2, .f32⟩
  | .local _ .vmem, ⟨10, _⟩ => ⟨S512x2, .f32⟩
  | .local _ .vmem, ⟨11, _⟩ => ⟨S512x2, .f32⟩
  | _, _ => ⟨S4096x1728x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![8, 72], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x24x24 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x24 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x3504 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3504x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S512x24x24_S512x24x24_0_0_0 : ∀ a, (![0, 0, 0] : Fin 3 → Nat) a + S512x24x24.size a ≤ S512x24x24.size a
  h_S512x24x24 : 0 < S512x24x24.numel
  reduces_S512x24x24_S512x24 : S512x24x24.Reduces [1] S512x24
  shapeCasts_S512x24_S512x1x24 : S512x24.ShapeCasts S512x1x24
  broadcasts_S512x1x24_S512x24x24 : S512x1x24.Broadcasts S512x24x24
  inb_S1x512x24_S1x512x24_0_0_0 : ∀ a, (![0, 0, 0] : Fin 3 → Nat) a + S1x512x24.size a ≤ S1x512x24.size a
  h_S1x512x24 : 0 < S1x512x24.numel
  shapeCasts_S1x512x24_S512x24 : S1x512x24.ShapeCasts S512x24
  shapeCasts_S512x24_S1x512x24 : S512x24.ShapeCasts S1x512x24
  transposes_S72x4096x24_S4096x72x24_1_0_2 : S72x4096x24.Transposes [1, 0, 2] S4096x72x24
  concatenates_S4096x72x24_S4096x72x24_S4096x1x24_S4096x1x24_S4096x146x24_d1 : Shape.Concatenates [S4096x72x24, S4096x72x24, S4096x1x24, S4096x1x24] S4096x146x24 1
  shapeCasts_S4096x146x24_S4096x3504 : S4096x146x24.ShapeCasts S4096x3504
  inb_S512x3504_S512x3504_0_0 : ∀ a, (![0, 0] : Fin 2 → Nat) a + S512x3504.size a ≤ S512x3504.size a
  h_S512x3504 : 0 < S512x3504.numel
  shapeCasts_S512x3504_S512x3504 : S512x3504.ShapeCasts S512x3504
  bitsLt_bf16_f32 : FTy.bits .bf16 < FTy.bits .f32
  inb_S3504x512_S3504x512_0_0 : ∀ a, (![0, 0] : Fin 2 → Nat) a + S3504x512.size a ≤ S3504x512.size a
  h_S3504x512 : 0 < S3504x512.numel
  inb_S512x2_S512x2_0_0 : ∀ a, (![0, 0] : Fin 2 → Nat) a + S512x2.size a ≤ S512x2.size a
  h_S512x2 : 0 < S512x2.numel
  dot_S512x3504_S3504x512_S512x512_1_0_0_1_n_n_wf : DotDims.WF S512x3504 S3504x512 S512x512 [1] [0] [0] [1] [] []
  dot_S512x512_S512x2_S512x2_1_0_0_1_n_n_wf : DotDims.WF S512x512 S512x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x24x24.size a ≤ S4096x1728x24.size a
  hwx0_0 : ∀ i : grid0.Coords, EltTy.bits .f32 = 32 ∨ (Rect.block (s := S4096x1728x24) S512x24x24.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x24.size a ≤ S72x4096x24.size a
  hwx0_1 : ∀ i : grid0.Coords, EltTy.bits .f32 = 32 ∨ (Rect.block (s := S72x4096x24) S1x512x24.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x24.size a ≤ S72x4096x24.size a
  hwx0_2 : ∀ i : grid0.Coords, EltTy.bits .f32 = 32 ∨ (Rect.block (s := S72x4096x24) S1x512x24.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x3504.size a ≤ S4096x3504.size a
  hwx1_0 : ∀ i : grid1.Coords, EltTy.bits .f32 = 32 ∨ (Rect.block (s := S4096x3504) S512x3504.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S3504x512.size a ≤ S3504x512.size a
  hwx1_1 : ∀ i : grid1.Coords, EltTy.bits .f32 = 32 ∨ (Rect.block (s := S3504x512) S3504x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512x2.size a ≤ S512x2.size a
  hwx1_2 : ∀ i : grid1.Coords, EltTy.bits .f32 = 32 ∨ (Rect.block (s := S512x2) S512x2.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x2.size a ≤ S4096x2.size a
  hwx1_3 : ∀ i : grid1.Coords, EltTy.bits .f32 = 32 ∨ (Rect.block (s := S4096x2) S512x2.size (cc1_transform_3 i) (hinb1_3 i)).WholeWords (EltTy.packing .f32)

variable [Facts₀]

def dot_S512x3504_S3504x512_S512x512_1_0_0_1_n_n : DotDims S512x3504 S3504x512 S512x512 where
  lhsContracting := [1]
  rhsContracting := [0]
  lhsNonContracting := [0]
  rhsNonContracting := [1]
  lhsBatch := []
  rhsBatch := []
  wf := dot_S512x3504_S3504x512_S512x512_1_0_0_1_n_n_wf
def dot_S512x512_S512x2_S512x2_1_0_0_1_n_n : DotDims S512x512 S512x2 S512x2 where
  lhsContracting := [1]
  rhsContracting := [0]
  lhsNonContracting := [0]
  rhsNonContracting := [1]
  lhsBatch := []
  rhsBatch := []
  wf := dot_S512x512_S512x2_S512x2_1_0_0_1_n_n_wf

abbrev win0_0 : Pipeline.Window sig grid0 :=
  Pipeline.Window.ofSpec (Memref.whole main_arg0) S512x24x24.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x512x24.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x512x24.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S512x3504.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S3504x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S512x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S512x2.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1728x24 : Shape := ⟨3, ![4096, 1728, 24]⟩
abbrev S4096x1x24 : Shape := ⟨3, ![4096, 1, 24]⟩
abbrev S3504x512 : Shape := ⟨2, ![3504, 512]⟩
abbrev S512x2 : Shape := ⟨2, ![512, 2]⟩
abbrev S4096x72x24x24 : Shape := ⟨4, ![4096, 72, 24, 24]⟩
abbrev S_ : Shape := ⟨0, ![]⟩
abbrev S4096x72x24 : Shape := ⟨3, ![4096, 72, 24]⟩
abbrev S4096x72x1x24 : Shape := ⟨4, ![4096, 72, 1, 24]⟩
abbrev S4096x144x24 : Shape := ⟨3, ![4096, 144, 24]⟩
abbrev S4096x146x24 : Shape := ⟨3, ![4096, 146, 24]⟩
abbrev S4096x3504 : Shape := ⟨2, ![4096, 3504]⟩
abbrev S4096x512 : Shape := ⟨2, ![4096, 512]⟩
abbrev S4096x2 : Shape := ⟨2, ![4096, 2]⟩

abbrev nBuf : Space → Nat
  | .hbm => 30
  | .vmem => 0
  | .smem => 0
  | _ => 0

abbrev bufTy : (tb : Table) → Fin (tcTables nBuf tb) → BufTy
  | .hbm, ⟨0, _⟩ => ⟨S4096x1728x24, .f32⟩
  | .hbm, ⟨1, _⟩ => ⟨S4096x1x24, .f32⟩
  | .hbm, ⟨2, _⟩ => ⟨S4096x1x24, .f32⟩
  | .hbm, ⟨3, _⟩ => ⟨S3504x512, .f32⟩
  | .hbm, ⟨4, _⟩ => ⟨S512x2, .f32⟩
  | .hbm, ⟨5, _⟩ => ⟨S4096x1728x24, .f32⟩
  | .hbm, ⟨6, _⟩ => ⟨S4096x72x24x24, .f32⟩
  | .hbm, ⟨7, _⟩ => ⟨S_, .f32⟩
  | .hbm, ⟨8, _⟩ => ⟨S4096x72x24, .f32⟩
  | .hbm, ⟨9, _⟩ => ⟨S_, .f32⟩
  | .hbm, ⟨10, _⟩ => ⟨S4096x72x24, .f32⟩
  | .hbm, ⟨11, _⟩ => ⟨S4096x72x24, .f32⟩
  | .hbm, ⟨12, _⟩ => ⟨S4096x72x1x24, .f32⟩
  | .hbm, ⟨13, _⟩ => ⟨S4096x72x24x24, .f32⟩
  | .hbm, ⟨14, _⟩ => ⟨S4096x72x24x24, .f32⟩
  | .hbm, ⟨15, _⟩ => ⟨S4096x72x24x24, .f32⟩
  | .hbm, ⟨16, _⟩ => ⟨S_, .f32⟩
  | .hbm, ⟨17, _⟩ => ⟨S4096x72x24, .f32⟩
  | .hbm, ⟨18, _⟩ => ⟨S_, .f32⟩
  | .hbm, ⟨19, _⟩ => ⟨S4096x72x24, .f32⟩
  | .hbm, ⟨20, _⟩ => ⟨S4096x72x24, .f32⟩
  | .hbm, ⟨21, _⟩ => ⟨S_, .f32⟩
  | .hbm, ⟨22, _⟩ => ⟨S4096x72x24, .f32⟩
  | .hbm, ⟨23, _⟩ => ⟨S4096x72x24, .f32⟩
  | .hbm, ⟨24, _⟩ => ⟨S4096x72x24, .f32⟩
  | .hbm, ⟨25, _⟩ => ⟨S4096x144x24, .f32⟩
  | .hbm, ⟨26, _⟩ => ⟨S4096x146x24, .f32⟩
  | .hbm, ⟨27, _⟩ => ⟨S4096x3504, .f32⟩
  | .hbm, ⟨28, _⟩ => ⟨S4096x512, .f32⟩
  | .hbm, ⟨29, _⟩ => ⟨S4096x2, .f32⟩
  | _, _ => ⟨S4096x1728x24, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  shapeCasts_S4096x1728x24_S4096x72x24x24 : S4096x1728x24.ShapeCasts S4096x72x24x24
  reducesTo_S4096x72x24x24_S4096x72x24_d2 : S4096x72x24x24.ReducesTo [2] S4096x72x24
  h_S_ : 0 < S_.numel
  bcast_S_S4096x72x24 : S_.BroadcastsInDim S4096x72x24 (![] : Fin 0 → Fin S4096x72x24.rank)
  bcast_S4096x72x24_S4096x72x1x24_0_1_3 : S4096x72x24.BroadcastsInDim S4096x72x1x24 (![0, 1, 3] : Fin 3 → Fin S4096x72x1x24.rank)
  bcast_S4096x72x1x24_S4096x72x24x24_0_1_2_3 : S4096x72x1x24.BroadcastsInDim S4096x72x24x24 (![0, 1, 2, 3] : Fin 4 → Fin S4096x72x24x24.rank)
  concatenates_S4096x72x24_S4096x72x24_S4096x144x24_d1 : Shape.Concatenates [S4096x72x24, S4096x72x24] S4096x144x24 1
  concatenates_S4096x144x24_S4096x1x24_S4096x1x24_S4096x146x24_d1 : Shape.Concatenates [S4096x144x24, S4096x1x24, S4096x1x24] S4096x146x24 1
  shapeCasts_S4096x146x24_S4096x3504 : S4096x146x24.ShapeCasts S4096x3504
  dot_S4096x3504_S3504x512_S4096x512_1_0_0_1_n_n_wf : DotDims.WF S4096x3504 S3504x512 S4096x512 [1] [0] [0] [1] [] []
  dot_S4096x512_S512x2_S4096x2_1_0_0_1_n_n_wf : DotDims.WF S4096x512 S512x2 S4096x2 [1] [0] [0] [1] [] []

variable [Facts₀]

def dot_S4096x3504_S3504x512_S4096x512_1_0_0_1_n_n : DotDims S4096x3504 S3504x512 S4096x512 where
  lhsContracting := [1]
  rhsContracting := [0]
  lhsNonContracting := [0]
  rhsNonContracting := [1]
  lhsBatch := []
  rhsBatch := []
  wf := dot_S4096x3504_S3504x512_S4096x512_1_0_0_1_n_n_wf
def dot_S4096x512_S512x2_S4096x2_1_0_0_1_n_n : DotDims S4096x512 S512x2 S4096x2 where
  lhsContracting := [1]
  rhsContracting := [0]
  lhsNonContracting := [0]
  rhsNonContracting := [1]
  lhsBatch := []
  rhsBatch := []
  wf := dot_S4096x512_S512x2_S4096x2_1_0_0_1_n_n_wf

class Facts : Prop extends Facts₀ where

variable [Facts]
-- ==== Proof.KRegion0.lean ====
/-
  The windowed-statistics region of the program, at any float instance.

  The grid is 8 × 72. Point (bi, wi) stages the block of x holding batch rows 512·bi … 512·bi+511, time steps
  24·wi … 24·wi+23 and all 24 channels. The body reads that block once and writes two blocks of shape 1 × 512 × 24:
  per (row, channel), the mean of the 24 time steps, and the square root of the mean squared deviation from that
  mean plus ε. Both stores overwrite their block whole, so what a point leaves in each output block is a function
  of the one input block alone, whatever the block held before: that function is `statsMean` / `statsStd` below.
  Nothing here depends on what the arithmetic is: the two stored values are the skeleton's payloads, kept opaque.
-/
import proofs.«109782_j79388175499469_2_alg».proof.Proof.Gen.Kernel.Launch
import proofs.«109782_j79388175499469_2_alg».proof.Proof.Gen.Kernel.Skeleton
import proofs.«109782_j79388175499469_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- The block of window `w`'s array that grid point `t` stages, read off the entry contents. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the point's block of x at every point, for any proof data over the entry
    contents whose body leaves that buffer alone. -/
theorem before0_0_of {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)

/-- The whole input block and the whole output block, as the rectangles the body's load and stores name. -/
abbrev wholeIn0 : Rect S512x24x24 := Rect.unit (s := S512x24x24) ![0, 0, 0] S512x24x24.size inb_S512x24x24_S512x24x24_0_0_0
abbrev wholeOut0 : Rect S1x512x24 := Rect.unit (s := S1x512x24) ![0, 0, 0] S1x512x24.size inb_S1x512x24_S1x512x24_0_0_0

/-- What a point leaves in the mean block, from its block of x: the one store, over the whole block. -/
def statsMean (x0 : Vec F S512x24x24 .f32) : Vec F S1x512x24 .f32 :=
  View.canon [⟨wholeOut0, k0_pay2 (View.ld x0 wholeIn0)⟩]
/-- What a point leaves in the deviation block, from its block of x. -/
def statsStd (x0 : Vec F S512x24x24 .f32) : Vec F S1x512x24 .f32 :=
  View.canon [⟨wholeOut0, k0_pay3 (View.ld x0 wholeIn0)⟩]

/-- One store over the whole block covers the block. -/
theorem coverOut0 (p0 : Vec F S1x512x24 .f32) (y : S1x512x24.Idx) :
    ∃ pc ∈ ([⟨wholeOut0, p0⟩] : List (View.Piece (Elt F) S1x512x24 .f32)), y ∈ pc.1.set :=
  View.cover_of_tiled [⟨wholeOut0, p0⟩] S1x512x24.size (by rfl) y

set_option maxHeartbeats 1000000 in
/-- The body on whole staging buffers — the input's at `x0`, the outputs' at anything — runs to the input's as it was
    and the outputs' at `statsMean x0` and `statsStd x0`. -/
theorem sound_kernel0 (c : Dev nD) (E : Set ℕ) (i : grid0.Coords) (arg2 : Memref sig .tc .vmem S512x24x24 .f32) (harg2 : arg2.IsWhole)
    (arg3 : Memref sig .tc .vmem S1x512x24 .f32) (harg3 : arg3.IsWhole) (arg4 : Memref sig .tc .vmem S1x512x24 .f32) (harg4 : arg4.IsWhole)
    (x0 : Vec F S512x24x24 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (statsMean x0)
            ∗ owns (c : Thread nD τ) arg4 fullShare (statsStd x0)) -∗ K ⟨⟩))
      ⊢ wp frame (wpE (defs₀ (F := F)) Variants.none c none) E (cc0__window_stats_kernel i arg2 harg2 arg3 harg3 arg4 harg4) K := by
  simp only [cc0__window_stats_kernel_eq_skeleton]; unfold cc0__window_stats_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverOut0 _)
  iexists _; isplitr
  swap; · iexact H2
  ipureintro
  exact View.read_writes_eq_canon _ _ _ (coverOut0 _)

/-- The region's proof data on core `c`: the arrays as the region finds them; after the body at point `t` the input's
    buffer at its block and the outputs' at the two statistics of that block; nothing owed, full shares. -/
def dat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => statsMean (blockAt0 V c 0 t)
    | ⟨2, _⟩ => statsStd (blockAt0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blockAt0 V c 0 t := by dsimp only [dat0]
theorem after0_1 (c : Dev nD) (t : Fin cfg0.N) : (dat0 V c).after 1 t = statsMean (blockAt0 V c 0 t) := by dsimp only [dat0]
theorem after0_2 (c : Dev nD) (t : Fin cfg0.N) : (dat0 V c).after 2 t = statsStd (blockAt0 V c 0 t) := by dsimp only [dat0]

theorem before0_0 (c : Dev nD) (t : Fin cfg0.N) (d) : (dat0 V c).before 0 t d = blockAt0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (blockAt0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  The linear-backbone region of the program, at any float instance.

  The grid has 8 points. Point i stages rows 512·i … 512·i+511 of the feature matrix (all 3504 columns), and — once,
  at the first point, their block index never moving — the whole of both weight matrices. The body reads the three
  blocks and overwrites its 512 × 2 output block whole with the product of the feature rows by the first weight
  matrix and then by the second. So what a point leaves in the output block is a function of the three input
  blocks alone: `linearOut` below, over the skeleton's payload, whose arithmetic stays opaque here.
-/
import proofs.«109782_j79388175499469_2_alg».proof.Proof.Gen.Kernel.Launch
import proofs.«109782_j79388175499469_2_alg».proof.Proof.Gen.Kernel.Skeleton
import proofs.«109782_j79388175499469_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- The block of window `w`'s array that grid point `t` stages, read off the entry contents. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds the point's block at every point — fetched there, or (the two weight
    matrices after the first point) still holding the block fetched earlier, the block index not having moved. -/
theorem before1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)

/-- The whole blocks, as the rectangles the body's loads and store name. -/
abbrev wholeFeat1 : Rect S512x3504 := Rect.unit (s := S512x3504) ![0, 0] S512x3504.size inb_S512x3504_S512x3504_0_0
abbrev wholeW1 : Rect S3504x512 := Rect.unit (s := S3504x512) ![0, 0] S3504x512.size inb_S3504x512_S3504x512_0_0
abbrev wholeOut1 : Rect S512x2 := Rect.unit (s := S512x2) ![0, 0] S512x2.size inb_S512x2_S512x2_0_0

/-- What a point leaves in the output block, from its three input blocks: the one store, over the whole block. -/
def linearOut (x0 : Vec F S512x3504 .f32) (x1 : Vec F S3504x512 .f32) (x2 : Vec F S512x2 .f32) : Vec F S512x2 .f32 :=
  View.canon [⟨wholeOut1, k1_pay1 (View.ld x0 wholeFeat1) (View.ld x1 wholeW1) (View.ld x2 wholeOut1)⟩]

/-- One store over the whole block covers the block. -/
theorem coverOut1 (p0 : Vec F S512x2 .f32) (y : S512x2.Idx) :
    ∃ pc ∈ ([⟨wholeOut1, p0⟩] : List (View.Piece (Elt F) S512x2 .f32)), y ∈ pc.1.set :=
  View.cover_of_tiled [⟨wholeOut1, p0⟩] S512x2.size (by rfl) y

set_option maxHeartbeats 1000000 in
/-- The body on whole staging buffers — the inputs' at `x0`, `x1`, `x2`, the output's at anything — runs to the inputs' as
    they were and the output's at `linearOut x0 x1 x2`. -/
theorem sound_kernel1 (c : Dev nD) (E : Set ℕ) (i : grid1.Coords) (arg1 : Memref sig .tc .vmem S512x3504 .f32) (harg1 : arg1.IsWhole)
    (arg2 : Memref sig .tc .vmem S3504x512 .f32) (harg2 : arg2.IsWhole) (arg3 : Memref sig .tc .vmem S512x2 .f32) (harg3 : arg3.IsWhole)
    (arg4 : Memref sig .tc .vmem S512x2 .f32) (harg4 : arg4.IsWhole)
    (x0 : Vec F S512x3504 .f32) (x1 : Vec F S3504x512 .f32) (x2 : Vec F S512x2 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (linearOut x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut1 _)

/-- The region's proof data on core `c`: the arrays as the region finds them; after the body at point `t` each input's
    buffer at its block and the output's at `linearOut` of the three blocks; nothing owed, full shares. -/
def dat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => linearOut (blockAt1 V c 0 t) (blockAt1 V c 1 t) (blockAt1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blockAt1 V c 0 t := by dsimp only [dat1]
theorem after1_1 (c : Dev nD) (t : Fin cfg1.N) : (dat1 V c).after 1 t = blockAt1 V c 1 t := by dsimp only [dat1]
theorem after1_2 (c : Dev nD) (t : Fin cfg1.N) : (dat1 V c).after 2 t = blockAt1 V c 2 t := by dsimp only [dat1]
theorem after1_3 (c : Dev nD) (t : Fin cfg1.N) :
    (dat1 V c).after 3 t = linearOut (blockAt1 V c 0 t) (blockAt1 V c 1 t) (blockAt1 V c 2 t) := by dsimp only [dat1]

theorem before1_0 (c : Dev nD) (t : Fin cfg1.N) (d) : (dat1 V c).before 0 t d = blockAt1 V c 0 t :=
  before1_0_of V (dat1 V c) (A_eq1 V c 0) (after1_0 V c) t d
theorem before1_1 (c : Dev nD) (t : Fin cfg1.N) (d) : (dat1 V c).before 1 t d = blockAt1 V c 1 t :=
  before1_1_of V (dat1 V c) (A_eq1 V c 1) (after1_1 V c) t d
theorem before1_2 (c : Dev nD) (t : Fin cfg1.N) (d) : (dat1 V c).before 2 t d = blockAt1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (blockAt1 V c 0 t) (blockAt1 V c 1 t) (blockAt1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole run of the program, at any float instance: @main is the statistics region, four stretches of host
  operations (reverse the window axis of each statistic, move the batch axis to the front, join the two with the two
  extra feature rows along the middle axis, flatten), and the linear region.

  The contents of the core's buffers are followed boundary by boundary: `at0` is the launch memory; a region leaves
  each of its windows' arrays at what its write-backs leave (`Dat.arrAt … N`) and every other buffer alone; a host
  stretch leaves `StableHlo.after` of its operations. `run_all`: every weakly fair execution from a memory with zero
  counters terminates, nothing faulting, and every unscoped buffer ends at `at6`, the contents after the last item.
  The frame claim (`frame`) reads the five arguments there: no item writes one.
-/
import proofs.«109782_j79388175499469_2_alg».proof.Proof.KRegion0
import proofs.«109782_j79388175499469_2_alg».proof.Proof.KRegion1
import proofs.«109782_j79388175499469_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev at0 : Dev nD → Valuation τ sig (Elt F) := fun c b => m (c, b)
/-- The same read at the core's own references (what the statistics region is entered from). -/
abbrev in0 : (c : Dev nD) → (b : Ref sig .tc) → Buf (Elt F) ((c : Thread nD τ).loc b) := fun c b => at0 m c b
/-- After the statistics region: its three arrays at what the pipeline leaves, every other buffer as before. -/
def at1 (c : Dev nD) : Valuation τ sig (Elt F) :=
  Pipeline.withArrays spec0 c (at0 m c) fun w => (dat0 (in0 m) c).arrAt w cfg0.N
theorem at1_arr (c : Dev nD) (w : Fin cfg0.W) :
    at1 m c (Proc.devRef .tc (Pipeline.arrRef spec0 w)) = (dat0 (in0 m) c).arrAt w cfg0.N := by
  unfold at1; exact Pipeline.withArrays_arr spec0 launch0.win.arr_inj c _ _ w
theorem at1_of_ne (c : Dev nD) (b : Ref sig .tc) (hb : ∀ w, Pipeline.arrRef spec0 w ≠ b) :
    at1 m c (Proc.devRef .tc b) = at0 m c (Proc.devRef .tc b) := by
  unfold at1; exact Pipeline.withArrays_of_ne spec0 c _ _ b hb
abbrev out0 : (c : Dev nD) → (b : Ref sig .tc) → Buf (Elt F) ((c : Thread nD τ).loc b) := fun c b => at1 m c b
theorem hF0 (c : Dev nD) (w : Fin cfg0.W) : (dat0 (in0 m) c).arrAt w cfg0.N = out0 m c (Pipeline.arrRef spec0 w) :=
  (at1_arr m c w).symm
theorem hrest0 (c : Dev nD) : ∀ b, b ∉ Finset.univ.image (Pipeline.arrRef spec0) → out0 m c b = in0 m c b :=
  fun b hb => at1_of_ne m c b fun w e => hb (Finset.mem_image.mpr ⟨w, Finset.mem_univ _, e⟩)

/-- After reversing the mean's window axis, -/
abbrev at2 : Dev nD → Valuation τ sig (Elt F) := fun c => StableHlo.after hostOps1 (at1 m c)
/-- after moving its batch axis to the front, -/
abbrev at3 : Dev nD → Valuation τ sig (Elt F) := fun c => StableHlo.after hostOps1_1 (at2 m c)
/-- after reversing the deviation's window axis, -/
abbrev at4 : Dev nD → Valuation τ sig (Elt F) := fun c => StableHlo.after hostOps1_2 (at3 m c)
/-- after moving its batch axis to the front, joining the four pieces and flattening. -/
abbrev at5 : Dev nD → Valuation τ sig (Elt F) := fun c => StableHlo.after hostOps1_3 (at4 m c)
/-- The same read at the core's own references (what the linear region is entered from). -/
abbrev in1 : (c : Dev nD) → (b : Ref sig .tc) → Buf (Elt F) ((c : Thread nD τ).loc b) := fun c b => at5 m c b
/-- After the linear region: its four arrays at what the pipeline leaves, every other buffer as before. -/
def at6 (c : Dev nD) : Valuation τ sig (Elt F) :=
  Pipeline.withArrays spec1 c (at5 m c) fun w => (dat1 (in1 m) c).arrAt w cfg1.N
theorem at6_arr (c : Dev nD) (w : Fin cfg1.W) :
    at6 m c (Proc.devRef .tc (Pipeline.arrRef spec1 w)) = (dat1 (in1 m) c).arrAt w cfg1.N := by
  unfold at6; exact Pipeline.withArrays_arr spec1 launch1.win.arr_inj c _ _ w
theorem at6_of_ne (c : Dev nD) (b : Ref sig .tc) (hb : ∀ w, Pipeline.arrRef spec1 w ≠ b) :
    at6 m c (Proc.devRef .tc b) = at5 m c (Proc.devRef .tc b) := by
  unfold at6; exact Pipeline.withArrays_of_ne spec1 c _ _ b hb
abbrev out1 : (c : Dev nD) → (b : Ref sig .tc) → Buf (Elt F) ((c : Thread nD τ).loc b) := fun c b => at6 m c b
theorem hF1 (c : Dev nD) (w : Fin cfg1.W) : (dat1 (in1 m) c).arrAt w cfg1.N = out1 m c (Pipeline.arrRef spec1 w) :=
  (at6_arr m c w).symm
theorem hrest1 (c : Dev nD) : ∀ b, b ∉ Finset.univ.image (Pipeline.arrRef spec1) → out1 m c b = in1 m c b :=
  fun b hb => at6_of_ne m c b fun w e => hb (Finset.mem_image.mpr ⟨w, Finset.mem_univ _, e⟩)

/-! ## No item writes an argument -/

/-- A buffer no host stretch writes is the same before the four stretches and after them. -/
theorem at5_of (c : Dev nD) (r : Ref sig .tc) (h1 : r ∉ hostOps1_W) (h2 : r ∉ hostOps1_1_W) (h3 : r ∉ hostOps1_2_W) (h4 : r ∉ hostOps1_3_W) :
    at5 m c (Proc.devRef .tc r) = at1 m c (Proc.devRef .tc r) :=
  (StableHlo.after_of_writes_sub hostOps1_3 _ hostOps1_3_writes h4).trans <|
    (StableHlo.after_of_writes_sub hostOps1_2 _ hostOps1_2_writes h3).trans <|
    (StableHlo.after_of_writes_sub hostOps1_1 _ hostOps1_1_writes h2).trans <|
    StableHlo.after_of_writes_sub hostOps1 _ hostOps1_writes h1

/-- x is the statistics region's input: staged, never written back. -/
theorem at6_main_arg0 (c : Dev nD) : at6 m c (Proc.devRef .tc main_arg0) = m ((c : Thread nD τ).loc main_arg0) :=
  calc at6 m c (Proc.devRef .tc main_arg0)
    _ = at5 m c (Proc.devRef .tc main_arg0) := at6_of_ne m c main_arg0 (by decide)
    _ = at1 m c (Proc.devRef .tc main_arg0) := at5_of m c main_arg0 (by decide) (by decide) (by decide) (by decide)
    _ = at0 m c (Proc.devRef .tc main_arg0) := (at1_arr m c 0).trans (((dat0 (in0 m) c).arrAt_in 0 rfl _).trans (A_eq0 (in0 m) c 0))
    _ = m ((c : Thread nD τ).loc main_arg0) := rfl
/-- The two extra feature rows are read by the join only. -/
theorem at6_main_arg1 (c : Dev nD) : at6 m c (Proc.devRef .tc main_arg1) = m ((c : Thread nD τ).loc main_arg1) :=
  calc at6 m c (Proc.devRef .tc main_arg1)
    _ = at5 m c (Proc.devRef .tc main_arg1) := at6_of_ne m c main_arg1 (by decide)
    _ = at1 m c (Proc.devRef .tc main_arg1) := at5_of m c main_arg1 (by decide) (by decide) (by decide) (by decide)
    _ = at0 m c (Proc.devRef .tc main_arg1) := at1_of_ne m c main_arg1 (by decide)
    _ = m ((c : Thread nD τ).loc main_arg1) := rfl
theorem at6_main_arg2 (c : Dev nD) : at6 m c (Proc.devRef .tc main_arg2) = m ((c : Thread nD τ).loc main_arg2) :=
  calc at6 m c (Proc.devRef .tc main_arg2)
    _ = at5 m c (Proc.devRef .tc main_arg2) := at6_of_ne m c main_arg2 (by decide)
    _ = at1 m c (Proc.devRef .tc main_arg2) := at5_of m c main_arg2 (by decide) (by decide) (by decide) (by decide)
    _ = at0 m c (Proc.devRef .tc main_arg2) := at1_of_ne m c main_arg2 (by decide)
    _ = m ((c : Thread nD τ).loc main_arg2) := rfl
/-- The two weight matrices are the linear region's inputs: staged, never written back. -/
theorem at5_main_arg3 (c : Dev nD) : at5 m c (Proc.devRef .tc main_arg3) = m ((c : Thread nD τ).loc main_arg3) :=
  (at5_of m c main_arg3 (by decide) (by decide) (by decide) (by decide)).trans ((at1_of_ne m c main_arg3 (by decide)).trans rfl)
theorem at5_main_arg4 (c : Dev nD) : at5 m c (Proc.devRef .tc main_arg4) = m ((c : Thread nD τ).loc main_arg4) :=
  (at5_of m c main_arg4 (by decide) (by decide) (by decide) (by decide)).trans ((at1_of_ne m c main_arg4 (by decide)).trans rfl)
theorem at6_main_arg3 (c : Dev nD) : at6 m c (Proc.devRef .tc main_arg3) = m ((c : Thread nD τ).loc main_arg3) :=
  ((at6_arr m c 1).trans (((dat1 (in1 m) c).arrAt_in 1 rfl _).trans (A_eq1 (in1 m) c 1))).trans (at5_main_arg3 m c)
theorem at6_main_arg4 (c : Dev nD) : at6 m c (Proc.devRef .tc main_arg4) = m ((c : Thread nD τ).loc main_arg4) :=
  ((at6_arr m c 2).trans (((dat1 (in1 m) c).arrAt_in 2 rfl _).trans (A_eq1 (in1 m) c 2))).trans (at5_main_arg4 m c)

/-! ## The proof data family and the thread state -/

/-- No region has a prefetched table. -/
abbrev noTables : (p : Fin 2) → (pcfgs (F := F) p).Adm := fun p => (cfgs p).toPCfg_adm
/-- Each region's proof data at its entry contents. -/
def regionDats : (p : Fin 2) → (c : Dev nD) → Dat τ (Elt F) Unit ℕ (UR sig nD τ) ℕ (Pipeline.pin (pcfgs (F := F)) noTables p) c
  | ⟨0, _⟩ => fun c => dat0 (in0 m) c
  | ⟨1, _⟩ => fun c => dat1 (in1 m) c
abbrev noVariants : Variants := Variants.none
/-- No core owes another anything. -/
abbrev noPairs : GSem nD τ sig → Finset Unit := fun _ => ∅
abbrev noLevels : GSem nD τ sig → Unit → ℕ := fun _ _ => 0
/-- What rides beside the buffers through every item: the core's generator register at some state, and nothing owed. -/
abbrev beside (c : Dev nD) : sProp 𝕄 := iprop((∃ r, prngReg c r) ∗ ∃ W, owes (c : Thread nD τ) (0 : CellTallies nD τ sig Unit) W)
/-- A host stretch as a segment over every unscoped buffer, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `at6`, the generator register at some state. -/
abbrev lastState (c : Dev nD) : sProp 𝕄 := iprop(StableHlo.held (c : Thread nD τ) (Pipeline.ucRefs τ sig) (at6 m c) ∗ ∃ r, prngReg c r)

/-! ## The regions as segments -/

set_option backward.isDefEq.respectTransparency.types false in
/-- The statistics region: entered from every unscoped buffer at `at0`, left at `at1`. -/
def statsSeg : Pipeline.RegionSeg (pcfgs (F := F)) noTables (regionDats m) () defs₀ noVariants noPairs noLevels 0 where
  win := launch0.win.to₀
  block_pos := launch0.block_pos
  stage_whole := launch0.stage_whole
  K := PEmpty
  osem k := k.elim
  ho := Pipeline.OwnSemFacts.none _
  hbody c := (body_obligation0 (in0 m) c).loose
  hwaits := Pipeline.hwaits_of_owed_zero _ _ _ _ noPairs noLevels 0 fun _ _ => rfl
  pre c := iprop(StableHlo.held (c : Thread nD τ) (Pipeline.ucRefs τ sig) (at0 m c) ∗ beside c)
  post c := iprop(StableHlo.held (c : Thread nD τ) (Pipeline.ucRefs τ sig) (at1 m c) ∗ beside c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) noTables (regionDats m) launch0.win launch0.arr_whole c
      ((regionDats m 0 c).share_full fun _ => rfl) (in0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m 0 c).Φ 0 = Pipeline.ΦA spec0 c from rfl]; unfold Pipeline.ΦA
    iintro ⟨Hp, -, Hr⟩
    isplitl [Hr]; · iexact Hr
    iexact Hp
  hout c := by
    rw [Pipeline.ownSems0_none, show (regionDats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (regionDats m) ((regionDats m 0 c).share_full fun _ => rfl)
      (in0 m c) (out0 m c) ((regionDats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The linear region: entered from every unscoped buffer at `at5`, left at `at6` (what the launch reads at the end). -/
def linearSeg : Pipeline.RegionSeg (pcfgs (F := F)) noTables (regionDats m) () defs₀ noVariants noPairs noLevels 1 where
  win := launch1.win.to₀
  block_pos := launch1.block_pos
  stage_whole := launch1.stage_whole
  K := PEmpty
  osem k := k.elim
  ho := Pipeline.OwnSemFacts.none _
  hbody c := (body_obligation1 (in1 m) c).loose
  hwaits := Pipeline.hwaits_of_owed_zero _ _ _ _ noPairs noLevels 1 fun _ _ => rfl
  pre c := iprop(StableHlo.held (c : Thread nD τ) (Pipeline.ucRefs τ sig) (at5 m c) ∗ beside c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) noTables (regionDats m) launch1.win launch1.arr_whole c
      ((regionDats m 1 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m 1 c).Φ 0 = Pipeline.ΦA spec1 c from rfl]; unfold Pipeline.ΦA
    iintro ⟨Hp, -, Hr⟩
    isplitl [Hr]; · iexact Hr
    iexact Hp
  hout c := by
    rw [Pipeline.ownSems0_none, show (regionDats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (regionDats m) ((regionDats m 1 c).share_full fun _ => rfl)
      (in1 m c) (out1 m c) ((regionDats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six items in order. -/
abbrev mainSegs : List (Pipeline.Seg (pcfgs (F := F)) noTables (regionDats m) () defs₀ noVariants noPairs noLevels) :=
  [ .region (statsSeg m),
    .host (hostSeg hostOps1 hostOps1_sub hostOps1_fresh (at1 m)),
    .host (hostSeg hostOps1_1 hostOps1_1_sub hostOps1_1_fresh (at2 m)),
    .host (hostSeg hostOps1_2 hostOps1_2_sub hostOps1_2_fresh (at3 m)),
    .host (hostSeg hostOps1_3 hostOps1_3_sub hostOps1_3_fresh (at4 m)),
    .region (linearSeg m) ]

variable (ρ : Dev nD → PrngReg)

set_option backward.isDefEq.respectTransparency.types false in
/-- The run: from any memory with zero counters every weakly fair execution of @main terminates, nothing faulting,
    and every unscoped buffer of every core ends at `at6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = at6 m c b) :=
  Pipeline.θ_run_regions_kit (pcfgs (F := F)) noTables (regionDats m) () cellOf_inj emb₁ defs₀ noVariants noPairs noLevels m ρ main (mainSegs m)
    (fun c Q => by
      rewrite [main_chain c, Pipeline.Seg.run_eq_chain,
        show (mainSegs m).map Pipeline.Seg.prog = [
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()) ] from rfl]
      exact .rfl)
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ beside c)) (Tₙ := lastState m)
    (hch := ⟨fun _ => .rfl, fun _ => .rfl, fun _ => .rfl, fun _ => .rfl, fun _ => .rfl, fun _ => .rfl, fun _ => .rfl⟩)
    (hinit := by
      refine Pipeline.initEach noPairs noLevels fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at6 m c b)
    (hfin := fun c s' => by
      iintro ⟨⟨Hh, -⟩, HSI⟩
      unfold StableHlo.held
      imodintro
      iapply (pointsTo_read_all (Pipeline.ucRefs τ sig) (fun b => (((c : Thread nD τ)).1, b)) (at6 m c) s')
      isplitl [Hh] <;> iassumption)
    (hQ := fun s h c => h c)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (at6_main_arg0 m c),
     (h c _ (mem_uc main_arg1 (by decide))).trans (at6_main_arg1 m c),
     (h c _ (mem_uc main_arg2 (by decide))).trans (at6_main_arg2 m c),
     (h c _ (mem_uc main_arg3 (by decide))).trans (at6_main_arg3 m c),
     (h c _ (mem_uc main_arg4 (by decide))).trans (at6_main_arg4 m c)⟩) (run_all m ρ)

end Cert.Kernel.Hand

end
-- ==== Proof.KIRegion0.lean ====
/-
  The windowed-statistics region of the program, at any float instance.

  The grid is 8 × 72. Point (bi, wi) stages the block of x holding batch rows 512·bi … 512·bi+511, time steps
  24·wi … 24·wi+23 and all 24 channels. The body reads that block once and writes two blocks of shape 1 × 512 × 24:
  per (row, channel), the mean of the 24 time steps, and the square root of the mean squared deviation from that
  mean plus ε. Both stores overwrite their block whole, so what a point leaves in each output block is a function
  of the one input block alone, whatever the block held before: that function is `statsMean` / `statsStd` below.
  Nothing here depends on what the arithmetic is: the two stored values are the skeleton's payloads, kept opaque.
-/
import proofs.«109782_j79388175499469_2_alg».proof.Proof.Gen.KernelIdeal.Launch
import proofs.«109782_j79388175499469_2_alg».proof.Proof.Gen.KernelIdeal.Skeleton
import proofs.«109782_j79388175499469_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- The block of window `w`'s array that grid point `t` stages, read off the entry contents. -/
def blockAt0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input's staging buffer holds the point's block of x at every point, for any proof data over the entry
    contents whose body leaves that buffer alone. -/
theorem before0_0_of {c : Dev nD} (dat : Dat τ (Elt F) Unit ℕ (UR sig nD τ) ℕ cfg0 c) (hA : dat.A 0 = V c (Pipeline.arrRef spec0 0))
    (hafter : ∀ t, dat.after 0 t = blockAt0 V c 0 t) (t : Fin cfg0.N) (d) : dat.before 0 t d = blockAt0 V c 0 t :=
  (dat.before_in_eq_fetched 0 rfl (fun _ => rfl) (fun _ _ _ => rfl) (fun t => by rw [hafter]; unfold Dat.blockOf blockAt0; rw [hA]; try rfl) t d).trans
    (by unfold Dat.fetched Dat.blockOf blockAt0; rw [hA]; try rfl)

/-- The whole input block and the whole output block, as the rectangles the body's load and stores name. -/
abbrev wholeIn0 : Rect S512x24x24 := Rect.unit (s := S512x24x24) ![0, 0, 0] S512x24x24.size inb_S512x24x24_S512x24x24_0_0_0
abbrev wholeOut0 : Rect S1x512x24 := Rect.unit (s := S1x512x24) ![0, 0, 0] S1x512x24.size inb_S1x512x24_S1x512x24_0_0_0

/-- What a point leaves in the mean block, from its block of x: the one store, over the whole block. -/
def statsMean (x0 : Vec F S512x24x24 .f32) : Vec F S1x512x24 .f32 :=
  View.canon [⟨wholeOut0, k0_pay2 (View.ld x0 wholeIn0)⟩]
/-- What a point leaves in the deviation block, from its block of x. -/
def statsStd (x0 : Vec F S512x24x24 .f32) : Vec F S1x512x24 .f32 :=
  View.canon [⟨wholeOut0, k0_pay3 (View.ld x0 wholeIn0)⟩]

/-- One store over the whole block covers the block. -/
theorem coverOut0 (p0 : Vec F S1x512x24 .f32) (y : S1x512x24.Idx) :
    ∃ pc ∈ ([⟨wholeOut0, p0⟩] : List (View.Piece (Elt F) S1x512x24 .f32)), y ∈ pc.1.set :=
  View.cover_of_tiled [⟨wholeOut0, p0⟩] S1x512x24.size (by rfl) y

set_option maxHeartbeats 1000000 in
/-- The body on whole staging buffers — the input's at `x0`, the outputs' at anything — runs to the input's as it was
    and the outputs' at `statsMean x0` and `statsStd x0`. -/
theorem sound_kernel0 (c : Dev nD) (E : Set ℕ) (i : grid0.Coords) (arg2 : Memref sig .tc .vmem S512x24x24 .f32) (harg2 : arg2.IsWhole)
    (arg3 : Memref sig .tc .vmem S1x512x24 .f32) (harg3 : arg3.IsWhole) (arg4 : Memref sig .tc .vmem S1x512x24 .f32) (harg4 : arg4.IsWhole)
    (x0 : Vec F S512x24x24 .f32) (K : PUnit → sProp 𝕄) :
    iprop(owns (c : Thread nD τ) arg2 fullShare x0 ∗ (∃ d, owns (c : Thread nD τ) arg3 fullShare d) ∗ (∃ d, owns (c : Thread nD τ) arg4 fullShare d)
        ∗ (iprop(owns (c : Thread nD τ) arg2 fullShare x0 ∗ owns (c : Thread nD τ) arg3 fullShare (statsMean x0)
            ∗ owns (c : Thread nD τ) arg4 fullShare (statsStd x0)) -∗ K ⟨⟩))
      ⊢ wp frame (wpE (defs₀ (F := F)) Variants.none c none) E (cc0__window_stats_kernel i arg2 harg2 arg3 harg3 arg4 harg4) K := by
  simp only [cc0__window_stats_kernel_eq_skeleton]; unfold cc0__window_stats_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (coverOut0 _)
  iexists _; isplitr
  swap; · iexact H2
  ipureintro
  exact View.read_writes_eq_canon _ _ _ (coverOut0 _)

/-- The region's proof data on core `c`: the arrays as the region finds them; after the body at point `t` the input's
    buffer at its block and the outputs' at the two statistics of that block; nothing owed, full shares. -/
def dat0 (c : Dev nD) : Dat τ (Elt F) Unit ℕ (UR sig nD τ) ℕ cfg0 c where
  A w := V c (Pipeline.arrRef spec0 w)
  after w t := match w with
    | ⟨0, _⟩ => blockAt0 V c 0 t
    | ⟨1, _⟩ => statsMean (blockAt0 V c 0 t)
    | ⟨2, _⟩ => statsStd (blockAt0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = blockAt0 V c 0 t := by dsimp only [dat0]
theorem after0_1 (c : Dev nD) (t : Fin cfg0.N) : (dat0 V c).after 1 t = statsMean (blockAt0 V c 0 t) := by dsimp only [dat0]
theorem after0_2 (c : Dev nD) (t : Fin cfg0.N) : (dat0 V c).after 2 t = statsStd (blockAt0 V c 0 t) := by dsimp only [dat0]

theorem before0_0 (c : Dev nD) (t : Fin cfg0.N) (d) : (dat0 V c).before 0 t d = blockAt0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (blockAt0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation of the region, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/-
  The linear-backbone region of the program, at any float instance.

  The grid has 8 points. Point i stages rows 512·i … 512·i+511 of the feature matrix (all 3504 columns), and — once,
  at the first point, their block index never moving — the whole of both weight matrices. The body reads the three
  blocks and overwrites its 512 × 2 output block whole with the product of the feature rows by the first weight
  matrix and then by the second. So what a point leaves in the output block is a function of the three input
  blocks alone: `linearOut` below, over the skeleton's payload, whose arithmetic stays opaque here.
-/
import proofs.«109782_j79388175499469_2_alg».proof.Proof.Gen.KernelIdeal.Launch
import proofs.«109782_j79388175499469_2_alg».proof.Proof.Gen.KernelIdeal.Skeleton
import proofs.«109782_j79388175499469_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- The block of window `w`'s array that grid point `t` stages, read off the entry contents. -/
def blockAt1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input's staging buffer holds the point's block at every point — fetched there, or (the two weight
    matrices after the first point) still holding the block fetched earlier, the block index not having moved. -/
theorem before1_0_of {c : Dev nD} (dat : Dat τ (Elt F) Unit ℕ (UR sig nD τ) ℕ cfg1 c) (hA : dat.A 0 = V c (Pipeline.arrRef spec1 0))
    (hafter : ∀ t, dat.after 0 t = blockAt1 V c 0 t) (t : Fin cfg1.N) (d) : dat.before 0 t d = blockAt1 V c 0 t :=
  (dat.before_in_eq_fetched 0 rfl (fun _ => rfl) (fun _ _ _ => rfl) (fun t => by rw [hafter]; unfold Dat.blockOf blockAt1; rw [hA]; try rfl) t d).trans
    (by unfold Dat.fetched Dat.blockOf blockAt1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = blockAt1 V c 1 t) (t : Fin cfg1.N) (d) : dat.before 1 t d = blockAt1 V c 1 t :=
  (dat.before_in_eq_fetched 1 rfl (fun _ => rfl) (fun _ _ _ => rfl) (fun t => by rw [hafter]; unfold Dat.blockOf blockAt1; rw [hA]; try rfl) t d).trans
    (by unfold Dat.fetched Dat.blockOf blockAt1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = blockAt1 V c 2 t) (t : Fin cfg1.N) (d) : dat.before 2 t d = blockAt1 V c 2 t :=
  (dat.before_in_eq_fetched 2 rfl (fun _ => rfl) (fun _ _ _ => rfl) (fun t => by rw [hafter]; unfold Dat.blockOf blockAt1; rw [hA]; try rfl) t d).trans
    (by unfold Dat.fetched Dat.blockOf blockAt1; rw [hA]; try rfl)

/-- The whole blocks, as the rectangles the body's loads and store name. -/
abbrev wholeFeat1 : Rect S512x3504 := Rect.unit (s := S512x3504) ![0, 0] S512x3504.size inb_S512x3504_S512x3504_0_0
abbrev wholeW1 : Rect S3504x512 := Rect.unit (s := S3504x512) ![0, 0] S3504x512.size inb_S3504x512_S3504x512_0_0
abbrev wholeOut1 : Rect S512x2 := Rect.unit (s := S512x2) ![0, 0] S512x2.size inb_S512x2_S512x2_0_0

/-- What a point leaves in the output block, from its three input blocks: the one store, over the whole block. -/
def linearOut (x0 : Vec F S512x3504 .f32) (x1 : Vec F S3504x512 .f32) (x2 : Vec F S512x2 .f32) : Vec F S512x2 .f32 :=
  View.canon [⟨wholeOut1, k1_pay1 (View.ld x0 wholeFeat1) (View.ld x1 wholeW1) (View.ld x2 wholeOut1)⟩]

/-- One store over the whole block covers the block. -/
theorem coverOut1 (p0 : Vec F S512x2 .f32) (y : S512x2.Idx) :
    ∃ pc ∈ ([⟨wholeOut1, p0⟩] : List (View.Piece (Elt F) S512x2 .f32)), y ∈ pc.1.set :=
  View.cover_of_tiled [⟨wholeOut1, p0⟩] S512x2.size (by rfl) y

set_option maxHeartbeats 1000000 in
/-- The body on whole staging buffers — the inputs' at `x0`, `x1`, `x2`, the output's at anything — runs to the inputs' as
    they were and the output's at `linearOut x0 x1 x2`. -/
theorem sound_kernel1 (c : Dev nD) (E : Set ℕ) (i : grid1.Coords) (arg1 : Memref sig .tc .vmem S512x3504 .f32) (harg1 : arg1.IsWhole)
    (arg2 : Memref sig .tc .vmem S3504x512 .f32) (harg2 : arg2.IsWhole) (arg3 : Memref sig .tc .vmem S512x2 .f32) (harg3 : arg3.IsWhole)
    (arg4 : Memref sig .tc .vmem S512x2 .f32) (harg4 : arg4.IsWhole)
    (x0 : Vec F S512x3504 .f32) (x1 : Vec F S3504x512 .f32) (x2 : Vec F S512x2 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (linearOut x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut1 _)

/-- The region's proof data on core `c`: the arrays as the region finds them; after the body at point `t` each input's
    buffer at its block and the output's at `linearOut` of the three blocks; nothing owed, full shares. -/
def dat1 (c : Dev nD) : Dat τ (Elt F) Unit ℕ (UR sig nD τ) ℕ cfg1 c where
  A w := V c (Pipeline.arrRef spec1 w)
  after w t := match w with
    | ⟨0, _⟩ => blockAt1 V c 0 t
    | ⟨1, _⟩ => blockAt1 V c 1 t
    | ⟨2, _⟩ => blockAt1 V c 2 t
    | ⟨3, _⟩ => linearOut (blockAt1 V c 0 t) (blockAt1 V c 1 t) (blockAt1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = blockAt1 V c 0 t := by dsimp only [dat1]
theorem after1_1 (c : Dev nD) (t : Fin cfg1.N) : (dat1 V c).after 1 t = blockAt1 V c 1 t := by dsimp only [dat1]
theorem after1_2 (c : Dev nD) (t : Fin cfg1.N) : (dat1 V c).after 2 t = blockAt1 V c 2 t := by dsimp only [dat1]
theorem after1_3 (c : Dev nD) (t : Fin cfg1.N) :
    (dat1 V c).after 3 t = linearOut (blockAt1 V c 0 t) (blockAt1 V c 1 t) (blockAt1 V c 2 t) := by dsimp only [dat1]

theorem before1_0 (c : Dev nD) (t : Fin cfg1.N) (d) : (dat1 V c).before 0 t d = blockAt1 V c 0 t :=
  before1_0_of V (dat1 V c) (A_eq1 V c 0) (after1_0 V c) t d
theorem before1_1 (c : Dev nD) (t : Fin cfg1.N) (d) : (dat1 V c).before 1 t d = blockAt1 V c 1 t :=
  before1_1_of V (dat1 V c) (A_eq1 V c 1) (after1_1 V c) t d
theorem before1_2 (c : Dev nD) (t : Fin cfg1.N) (d) : (dat1 V c).before 2 t d = blockAt1 V c 2 t :=
  before1_2_of V (dat1 V c) (A_eq1 V c 2) (after1_2 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (blockAt1 V c 0 t) (blockAt1 V c 1 t) (blockAt1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the region, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The whole run of the program, at any float instance: @main is the statistics region, four stretches of host
  operations (reverse the window axis of each statistic, move the batch axis to the front, join the two with the two
  extra feature rows along the middle axis, flatten), and the linear region.

  The contents of the core's buffers are followed boundary by boundary: `at0` is the launch memory; a region leaves
  each of its windows' arrays at what its write-backs leave (`Dat.arrAt … N`) and every other buffer alone; a host
  stretch leaves `StableHlo.after` of its operations. `run_all`: every weakly fair execution from a memory with zero
  counters terminates, nothing faulting, and every unscoped buffer ends at `at6`, the contents after the last item.
  The frame claim (`frame`) reads the five arguments there: no item writes one.
-/
import proofs.«109782_j79388175499469_2_alg».proof.Proof.KIRegion0
import proofs.«109782_j79388175499469_2_alg».proof.Proof.KIRegion1
import proofs.«109782_j79388175499469_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- At launch. -/
abbrev at0 : Dev nD → Valuation τ sig (Elt F) := fun c b => m (c, b)
/-- The same read at the core's own references (what the statistics region is entered from). -/
abbrev in0 : (c : Dev nD) → (b : Ref sig .tc) → Buf (Elt F) ((c : Thread nD τ).loc b) := fun c b => at0 m c b
/-- After the statistics region: its three arrays at what the pipeline leaves, every other buffer as before. -/
def at1 (c : Dev nD) : Valuation τ sig (Elt F) :=
  Pipeline.withArrays spec0 c (at0 m c) fun w => (dat0 (in0 m) c).arrAt w cfg0.N
theorem at1_arr (c : Dev nD) (w : Fin cfg0.W) :
    at1 m c (Proc.devRef .tc (Pipeline.arrRef spec0 w)) = (dat0 (in0 m) c).arrAt w cfg0.N := by
  unfold at1; exact Pipeline.withArrays_arr spec0 launch0.win.arr_inj c _ _ w
theorem at1_of_ne (c : Dev nD) (b : Ref sig .tc) (hb : ∀ w, Pipeline.arrRef spec0 w ≠ b) :
    at1 m c (Proc.devRef .tc b) = at0 m c (Proc.devRef .tc b) := by
  unfold at1; exact Pipeline.withArrays_of_ne spec0 c _ _ b hb
abbrev out0 : (c : Dev nD) → (b : Ref sig .tc) → Buf (Elt F) ((c : Thread nD τ).loc b) := fun c b => at1 m c b
theorem hF0 (c : Dev nD) (w : Fin cfg0.W) : (dat0 (in0 m) c).arrAt w cfg0.N = out0 m c (Pipeline.arrRef spec0 w) :=
  (at1_arr m c w).symm
theorem hrest0 (c : Dev nD) : ∀ b, b ∉ Finset.univ.image (Pipeline.arrRef spec0) → out0 m c b = in0 m c b :=
  fun b hb => at1_of_ne m c b fun w e => hb (Finset.mem_image.mpr ⟨w, Finset.mem_univ _, e⟩)

/-- After reversing the mean's window axis, -/
abbrev at2 : Dev nD → Valuation τ sig (Elt F) := fun c => StableHlo.after hostOps1 (at1 m c)
/-- after moving its batch axis to the front, -/
abbrev at3 : Dev nD → Valuation τ sig (Elt F) := fun c => StableHlo.after hostOps1_1 (at2 m c)
/-- after reversing the deviation's window axis, -/
abbrev at4 : Dev nD → Valuation τ sig (Elt F) := fun c => StableHlo.after hostOps1_2 (at3 m c)
/-- after moving its batch axis to the front, joining the four pieces and flattening. -/
abbrev at5 : Dev nD → Valuation τ sig (Elt F) := fun c => StableHlo.after hostOps1_3 (at4 m c)
/-- The same read at the core's own references (what the linear region is entered from). -/
abbrev in1 : (c : Dev nD) → (b : Ref sig .tc) → Buf (Elt F) ((c : Thread nD τ).loc b) := fun c b => at5 m c b
/-- After the linear region: its four arrays at what the pipeline leaves, every other buffer as before. -/
def at6 (c : Dev nD) : Valuation τ sig (Elt F) :=
  Pipeline.withArrays spec1 c (at5 m c) fun w => (dat1 (in1 m) c).arrAt w cfg1.N
theorem at6_arr (c : Dev nD) (w : Fin cfg1.W) :
    at6 m c (Proc.devRef .tc (Pipeline.arrRef spec1 w)) = (dat1 (in1 m) c).arrAt w cfg1.N := by
  unfold at6; exact Pipeline.withArrays_arr spec1 launch1.win.arr_inj c _ _ w
theorem at6_of_ne (c : Dev nD) (b : Ref sig .tc) (hb : ∀ w, Pipeline.arrRef spec1 w ≠ b) :
    at6 m c (Proc.devRef .tc b) = at5 m c (Proc.devRef .tc b) := by
  unfold at6; exact Pipeline.withArrays_of_ne spec1 c _ _ b hb
abbrev out1 : (c : Dev nD) → (b : Ref sig .tc) → Buf (Elt F) ((c : Thread nD τ).loc b) := fun c b => at6 m c b
theorem hF1 (c : Dev nD) (w : Fin cfg1.W) : (dat1 (in1 m) c).arrAt w cfg1.N = out1 m c (Pipeline.arrRef spec1 w) :=
  (at6_arr m c w).symm
theorem hrest1 (c : Dev nD) : ∀ b, b ∉ Finset.univ.image (Pipeline.arrRef spec1) → out1 m c b = in1 m c b :=
  fun b hb => at6_of_ne m c b fun w e => hb (Finset.mem_image.mpr ⟨w, Finset.mem_univ _, e⟩)

/-! ## No item writes an argument -/

/-- A buffer no host stretch writes is the same before the four stretches and after them. -/
theorem at5_of (c : Dev nD) (r : Ref sig .tc) (h1 : r ∉ hostOps1_W) (h2 : r ∉ hostOps1_1_W) (h3 : r ∉ hostOps1_2_W) (h4 : r ∉ hostOps1_3_W) :
    at5 m c (Proc.devRef .tc r) = at1 m c (Proc.devRef .tc r) :=
  (StableHlo.after_of_writes_sub hostOps1_3 _ hostOps1_3_writes h4).trans <|
    (StableHlo.after_of_writes_sub hostOps1_2 _ hostOps1_2_writes h3).trans <|
    (StableHlo.after_of_writes_sub hostOps1_1 _ hostOps1_1_writes h2).trans <|
    StableHlo.after_of_writes_sub hostOps1 _ hostOps1_writes h1

/-- x is the statistics region's input: staged, never written back. -/
theorem at6_main_arg0 (c : Dev nD) : at6 m c (Proc.devRef .tc main_arg0) = m ((c : Thread nD τ).loc main_arg0) :=
  calc at6 m c (Proc.devRef .tc main_arg0)
    _ = at5 m c (Proc.devRef .tc main_arg0) := at6_of_ne m c main_arg0 (by decide)
    _ = at1 m c (Proc.devRef .tc main_arg0) := at5_of m c main_arg0 (by decide) (by decide) (by decide) (by decide)
    _ = at0 m c (Proc.devRef .tc main_arg0) := (at1_arr m c 0).trans (((dat0 (in0 m) c).arrAt_in 0 rfl _).trans (A_eq0 (in0 m) c 0))
    _ = m ((c : Thread nD τ).loc main_arg0) := rfl
/-- The two extra feature rows are read by the join only. -/
theorem at6_main_arg1 (c : Dev nD) : at6 m c (Proc.devRef .tc main_arg1) = m ((c : Thread nD τ).loc main_arg1) :=
  calc at6 m c (Proc.devRef .tc main_arg1)
    _ = at5 m c (Proc.devRef .tc main_arg1) := at6_of_ne m c main_arg1 (by decide)
    _ = at1 m c (Proc.devRef .tc main_arg1) := at5_of m c main_arg1 (by decide) (by decide) (by decide) (by decide)
    _ = at0 m c (Proc.devRef .tc main_arg1) := at1_of_ne m c main_arg1 (by decide)
    _ = m ((c : Thread nD τ).loc main_arg1) := rfl
theorem at6_main_arg2 (c : Dev nD) : at6 m c (Proc.devRef .tc main_arg2) = m ((c : Thread nD τ).loc main_arg2) :=
  calc at6 m c (Proc.devRef .tc main_arg2)
    _ = at5 m c (Proc.devRef .tc main_arg2) := at6_of_ne m c main_arg2 (by decide)
    _ = at1 m c (Proc.devRef .tc main_arg2) := at5_of m c main_arg2 (by decide) (by decide) (by decide) (by decide)
    _ = at0 m c (Proc.devRef .tc main_arg2) := at1_of_ne m c main_arg2 (by decide)
    _ = m ((c : Thread nD τ).loc main_arg2) := rfl
/-- The two weight matrices are the linear region's inputs: staged, never written back. -/
theorem at5_main_arg3 (c : Dev nD) : at5 m c (Proc.devRef .tc main_arg3) = m ((c : Thread nD τ).loc main_arg3) :=
  (at5_of m c main_arg3 (by decide) (by decide) (by decide) (by decide)).trans ((at1_of_ne m c main_arg3 (by decide)).trans rfl)
theorem at5_main_arg4 (c : Dev nD) : at5 m c (Proc.devRef .tc main_arg4) = m ((c : Thread nD τ).loc main_arg4) :=
  (at5_of m c main_arg4 (by decide) (by decide) (by decide) (by decide)).trans ((at1_of_ne m c main_arg4 (by decide)).trans rfl)
theorem at6_main_arg3 (c : Dev nD) : at6 m c (Proc.devRef .tc main_arg3) = m ((c : Thread nD τ).loc main_arg3) :=
  ((at6_arr m c 1).trans (((dat1 (in1 m) c).arrAt_in 1 rfl _).trans (A_eq1 (in1 m) c 1))).trans (at5_main_arg3 m c)
theorem at6_main_arg4 (c : Dev nD) : at6 m c (Proc.devRef .tc main_arg4) = m ((c : Thread nD τ).loc main_arg4) :=
  ((at6_arr m c 2).trans (((dat1 (in1 m) c).arrAt_in 2 rfl _).trans (A_eq1 (in1 m) c 2))).trans (at5_main_arg4 m c)

/-! ## The proof data family and the thread state -/

/-- No region has a prefetched table. -/
abbrev noTables : (p : Fin 2) → (pcfgs (F := F) p).Adm := fun p => (cfgs p).toPCfg_adm
/-- Each region's proof data at its entry contents. -/
def regionDats : (p : Fin 2) → (c : Dev nD) → Dat τ (Elt F) Unit ℕ (UR sig nD τ) ℕ (Pipeline.pin (pcfgs (F := F)) noTables p) c
  | ⟨0, _⟩ => fun c => dat0 (in0 m) c
  | ⟨1, _⟩ => fun c => dat1 (in1 m) c
abbrev noVariants : Variants := Variants.none
/-- No core owes another anything. -/
abbrev noPairs : GSem nD τ sig → Finset Unit := fun _ => ∅
abbrev noLevels : GSem nD τ sig → Unit → ℕ := fun _ _ => 0
/-- What rides beside the buffers through every item: the core's generator register at some state, and nothing owed. -/
abbrev beside (c : Dev nD) : sProp 𝕄 := iprop((∃ r, prngReg c r) ∗ ∃ W, owes (c : Thread nD τ) (0 : CellTallies nD τ sig Unit) W)
/-- A host stretch as a segment over every unscoped buffer, from the contents `W`. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants noPairs noLevels :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W beside
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at `at6`, the generator register at some state. -/
abbrev lastState (c : Dev nD) : sProp 𝕄 := iprop(StableHlo.held (c : Thread nD τ) (Pipeline.ucRefs τ sig) (at6 m c) ∗ ∃ r, prngReg c r)

/-! ## The regions as segments -/

set_option backward.isDefEq.respectTransparency.types false in
/-- The statistics region: entered from every unscoped buffer at `at0`, left at `at1`. -/
def statsSeg : Pipeline.RegionSeg (pcfgs (F := F)) noTables (regionDats m) () defs₀ noVariants noPairs noLevels 0 where
  win := launch0.win.to₀
  block_pos := launch0.block_pos
  stage_whole := launch0.stage_whole
  K := PEmpty
  osem k := k.elim
  ho := Pipeline.OwnSemFacts.none _
  hbody c := (body_obligation0 (in0 m) c).loose
  hwaits := Pipeline.hwaits_of_owed_zero _ _ _ _ noPairs noLevels 0 fun _ _ => rfl
  pre c := iprop(StableHlo.held (c : Thread nD τ) (Pipeline.ucRefs τ sig) (at0 m c) ∗ beside c)
  post c := iprop(StableHlo.held (c : Thread nD τ) (Pipeline.ucRefs τ sig) (at1 m c) ∗ beside c)
  X c := iprop(∃ r, prngReg c r)
  Y c := iprop(∃ r, prngReg c r)
  Z c := Pipeline.unscopedRest (Ix := Unit) (Name := ℕ) (U := UR sig nD τ) (Lvl := ℕ) spec0 c (in0 m c)
  hentry c := by
    rw [Pipeline.ownSems0_none]
    have hsplit := Pipeline.arrays_of_unscopedBufs (p := 0) (pcfgs (F := F)) noTables (regionDats m) launch0.win launch0.arr_whole c
      ((regionDats m 0 c).share_full fun _ => rfl) (in0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m 0 c).Φ 0 = Pipeline.ΦA spec0 c from rfl]; unfold Pipeline.ΦA
    iintro ⟨Hp, -, Hr⟩
    isplitl [Hr]; · iexact Hr
    iexact Hp
  hout c := by
    rw [Pipeline.ownSems0_none, show (regionDats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (regionDats m) ((regionDats m 0 c).share_full fun _ => rfl)
      (in0 m c) (out0 m c) ((regionDats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The linear region: entered from every unscoped buffer at `at5`, left at `at6` (what the launch reads at the end). -/
def linearSeg : Pipeline.RegionSeg (pcfgs (F := F)) noTables (regionDats m) () defs₀ noVariants noPairs noLevels 1 where
  win := launch1.win.to₀
  block_pos := launch1.block_pos
  stage_whole := launch1.stage_whole
  K := PEmpty
  osem k := k.elim
  ho := Pipeline.OwnSemFacts.none _
  hbody c := (body_obligation1 (in1 m) c).loose
  hwaits := Pipeline.hwaits_of_owed_zero _ _ _ _ noPairs noLevels 1 fun _ _ => rfl
  pre c := iprop(StableHlo.held (c : Thread nD τ) (Pipeline.ucRefs τ sig) (at5 m c) ∗ beside c)
  post c := iprop(lastState m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (in1 m c)
  hentry c := by
    rw [Pipeline.ownSems0_none]
    have hsplit := Pipeline.arrays_of_unscopedBufs (p := 1) (pcfgs (F := F)) noTables (regionDats m) launch1.win launch1.arr_whole c
      ((regionDats m 1 c).share_full fun _ => rfl) (in1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (regionDats m 1 c).Φ 0 = Pipeline.ΦA spec1 c from rfl]; unfold Pipeline.ΦA
    iintro ⟨Hp, -, Hr⟩
    isplitl [Hr]; · iexact Hr
    iexact Hp
  hout c := by
    rw [Pipeline.ownSems0_none, show (regionDats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (regionDats m) ((regionDats m 1 c).share_full fun _ => rfl)
      (in1 m c) (out1 m c) ((regionDats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's six items in order. -/
abbrev mainSegs : List (Pipeline.Seg (pcfgs (F := F)) noTables (regionDats m) () defs₀ noVariants noPairs noLevels) :=
  [ .region (statsSeg m),
    .host (hostSeg hostOps1 hostOps1_sub hostOps1_fresh (at1 m)),
    .host (hostSeg hostOps1_1 hostOps1_1_sub hostOps1_1_fresh (at2 m)),
    .host (hostSeg hostOps1_2 hostOps1_2_sub hostOps1_2_fresh (at3 m)),
    .host (hostSeg hostOps1_3 hostOps1_3_sub hostOps1_3_fresh (at4 m)),
    .region (linearSeg m) ]

variable (ρ : Dev nD → PrngReg)

set_option backward.isDefEq.respectTransparency.types false in
/-- The run: from any memory with zero counters every weakly fair execution of @main terminates, nothing faulting,
    and every unscoped buffer of every core ends at `at6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = at6 m c b) :=
  Pipeline.θ_run_regions_kit (pcfgs (F := F)) noTables (regionDats m) () cellOf_inj emb₁ defs₀ noVariants noPairs noLevels m ρ main (mainSegs m)
    (fun c Q => by
      rewrite [main_chain c, Pipeline.Seg.run_eq_chain,
        show (mainSegs m).map Pipeline.Seg.prog = [
          Prog.lift (.customCall (Pipeline.entry 0) ()),
          StableHlo.seq hostOps1,
          StableHlo.seq hostOps1_1,
          StableHlo.seq hostOps1_2,
          StableHlo.seq hostOps1_3,
          Prog.lift (.customCall (Pipeline.entry 1) ()) ] from rfl]
      exact .rfl)
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (at0 m c) ∗ beside c)) (Tₙ := lastState m)
    (hch := ⟨fun _ => .rfl, fun _ => .rfl, fun _ => .rfl, fun _ => .rfl, fun _ => .rfl, fun _ => .rfl, fun _ => .rfl⟩)
    (hinit := by
      refine Pipeline.initEach noPairs noLevels fun c => ?_
      rw [show unscopedBufs c (fun b => m ((c : Thread nD τ).loc b)) = StableHlo.held (c : Thread nD τ) (Pipeline.ucRefs τ sig) (at0 m c)
        from Pipeline.unscopedBufs_held c (at0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = at6 m c b)
    (hfin := fun c s' => by
      iintro ⟨⟨Hh, -⟩, HSI⟩
      unfold StableHlo.held
      imodintro
      iapply (pointsTo_read_all (Pipeline.ucRefs τ sig) (fun b => (((c : Thread nD τ)).1, b)) (at6 m c) s')
      isplitl [Hh] <;> iassumption)
    (hQ := fun s h c => h c)

/-- The frame: the five argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_arg0 (by decide))).trans (at6_main_arg0 m c),
     (h c _ (mem_uc main_arg1 (by decide))).trans (at6_main_arg1 m c),
     (h c _ (mem_uc main_arg2 (by decide))).trans (at6_main_arg2 m c),
     (h c _ (mem_uc main_arg3 (by decide))).trans (at6_main_arg3 m c),
     (h c _ (mem_uc main_arg4 (by decide))).trans (at6_main_arg4 m c)⟩) (run_all m ρ)

end Cert.KernelIdeal.Hand

end
-- ==== Proof.KIStatsPay.lean ====
/-
  The statistics body's two stored values, index by index, on the extended reals.

  From a block v of shape 512 × 24 × 24 (row, time step, channel) the body stores, at (row r, channel c),
      mean(r, c) = (Σ_p v(r, p, c)) / 24
  and
      dev(r, c)  = sqrt( (Σ_p (v(r, p, c) − mean(r, c))²) / 24 + ε ),
  each through a cast to shape 1 × 512 × 24 that only adds a leading axis of extent one. The lane sums start from
  the zero word, which is the sum's neutral element, so no initial term is left; 24 and ε stay the literals'
  words, never evaluated. The mean reaches the deviation through a cast to 512 × 1 × 24 and a broadcast back along
  the time axis, which together read it at (r, c) for every time step.
-/
import proofs.«109782_j79388175499469_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

/-- The divisor 24 and ε, as the words the program spells. -/
abbrev lit24 : EReal := Ideal.ofBits .f32 0x41C00000#32
abbrev litEps : EReal := Ideal.ofBits .f32 0x3727C5AC#32

/-- The mean over the time axis of a block, at (row, channel). -/
def blockMean (v : FVec Ideal S512x24x24 .f32) (r : Fin 512) (c : Fin 24) : EReal :=
  Ideal.div (∑ p : Fin 24, v (ix3 r p c)) lit24

/-- The square root of the mean squared deviation plus ε, at (row, channel). -/
def blockDev (v : FVec Ideal S512x24x24 .f32) (r : Fin 512) (c : Fin 24) : EReal :=
  Ideal.sqrt (Ideal.div (∑ p : Fin 24, (v (ix3 r p c) - blockMean v r c) * (v (ix3 r p c) - blockMean v r c)) lit24 + litEps)

/-- A lane sum over the time axis from the zero word is the plain sum over the 24 time steps. -/
theorem timeSum_apply (v : FVec Ideal S512x24x24 .f32) (r : Fin 512) (c : Fin 24) :
    multiReduction (F := Ideal) .add [1] S512x24 v 0x00000000#32 reduces_S512x24x24_S512x24 (.inl rfl) rfl (ix2 r c)
      = ∑ p : Fin 24, v (ix3 r p c) := by
  refine (Ideal.multiReduction_add_single v 0x00000000#32 reduces_S512x24x24_S512x24 (.inl rfl) rfl (ix2 r c)).trans ?_
  refine Finset.sum_congr rfl fun p _ => congrArg v ?_
  funext a; apply Fin.ext
  match a with
  | ⟨0, _⟩ => rfl
  | ⟨1, _⟩ => rfl
  | ⟨2, _⟩ => rfl

/-- The first payload is the mean. -/
theorem pay1_apply (v : FVec Ideal S512x24x24 .f32) (r : Fin 512) (c : Fin 24) :
    k0_pay1 (F := Ideal) v (ix2 r c) = blockMean v r c := by
  unfold k0_pay1 blockMean
  show Ideal.div (multiReduction (F := Ideal) .add [1] S512x24 v 0x00000000#32 reduces_S512x24x24_S512x24 (.inl rfl) rfl (ix2 r c)) lit24 = _
  rw [timeSum_apply]

/-- The stored mean block: the mean under a leading unit axis. -/
theorem pay2_apply (v : FVec Ideal S512x24x24 .f32) (u : Fin 1) (r : Fin 512) (c : Fin 24) :
    k0_pay2 (F := Ideal) v (ix3 u r c) = blockMean v r c := by
  unfold k0_pay2
  exact (shapeCast_ab_1ab_apply (k0_pay1 (F := Ideal) v) shapeCasts_S512x24_S1x512x24 u r c).trans (pay1_apply v r c)

/-- A (row, channel) array given a unit time axis and broadcast along it reads, at every time step, the array at
    (row, channel). -/
theorem alongTime_apply (y : FVec Ideal S512x24 .f32) (r : Fin 512) (p : Fin 24) (c : Fin 24) :
    broadcastTo S512x24x24 (shapeCast S512x1x24 y shapeCasts_S512x24_S512x1x24) broadcasts_S512x1x24_S512x24x24 (ix3 r p c) = y (ix2 r c) := by
  refine (broadcastTo_apply _ broadcasts_S512x1x24_S512x24x24 (ix3 r p c) (ix3 r (0 : Fin 1) c) (fun a => ?_)).trans ?_
  · match a with
    | ⟨0, _⟩ => show r.val = if (512 : Nat) = 1 then 0 else r.val; rw [if_neg (by decide)]
    | ⟨1, _⟩ => show (0 : Nat) = if (1 : Nat) = 1 then 0 else p.val; rw [if_pos rfl]
    | ⟨2, _⟩ => show c.val = if (24 : Nat) = 1 then 0 else c.val; rw [if_neg (by decide)]
  · refine shapeCast_apply y shapeCasts_S512x24_S512x1x24 (ix3 r (0 : Fin 1) c) (ix2 r c) ?_
    rw [Shape.rowMajor_val_two, Shape.rowMajor_val_three]
    show r.val * 24 + c.val = (r.val * 1 + 0) * 24 + c.val
    omega

/-- The stored deviation block. -/
theorem pay3_apply (v : FVec Ideal S512x24x24 .f32) (u : Fin 1) (r : Fin 512) (c : Fin 24) :
    k0_pay3 (F := Ideal) v (ix3 u r c) = blockDev v r c := by
  unfold k0_pay3
  refine (shapeCast_ab_1ab_apply _ shapeCasts_S512x24_S1x512x24 u r c).trans ?_
  unfold blockDev
  show Ideal.sqrt (Ideal.div (multiReduction (F := Ideal) .add [1] S512x24 _ 0x00000000#32 reduces_S512x24x24_S512x24 (.inl rfl) rfl (ix2 r c)) lit24 + litEps) = _
  rw [timeSum_apply]
  refine congrArg (fun s => Ideal.sqrt (Ideal.div s lit24 + litEps)) (Finset.sum_congr rfl fun p _ => ?_)
  show (v (ix3 r p c) - broadcastTo S512x24x24 (shapeCast S512x1x24 (k0_pay1 (F := Ideal) v) shapeCasts_S512x24_S512x1x24) broadcasts_S512x1x24_S512x24x24 (ix3 r p c))
      * (v (ix3 r p c) - broadcastTo S512x24x24 (shapeCast S512x1x24 (k0_pay1 (F := Ideal) v) shapeCasts_S512x24_S512x1x24) broadcasts_S512x1x24_S512x24x24 (ix3 r p c)) = _
  rw [alongTime_apply, pay1_apply]

end Cert.KernelIdeal.Hand

end
-- ==== Proof.KIStatsArrays.lean ====
/-
  What the statistics region leaves in its two output arrays, as whole-array functions of x (extended reals).

  The mean array has shape 72 × 4096 × 24 (window, row, channel). Grid point t = 72·bi + wi writes block (wi, bi, 0)
  of it — one window, rows 512·bi … 512·bi+511 — from block (bi, wi, 0) of x — the same rows, time steps
  24·wi … 24·wi+23. So entry (w, b, c) of the array is computed from x(b, 24·w + p, c), p = 0 … 23: that is
  `winMean x`, and likewise `winDev x`; a point's write-back is a block of these functions because the input block's
  coordinates line up with the output block's (`idx_facts0`, decided over the 576 points). Every entry lies in the block
  of the point with bi = b / 512, wi = w, and every point writes back, so the arrays end equal to the two functions.
-/
import proofs.«109782_j79388175499469_2_alg».proof.Proof.KIRegion0
import proofs.«109782_j79388175499469_2_alg».proof.Proof.KIStatsPay

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
variable (V : (c : Dev nD) → (b : Ref sig .tc) → Buf (Elt Ideal) ((c : Thread nD τ).loc b))

theorem hz3 : (![0, 0, 0] : Fin 3 → Nat) = fun _ => 0 := funext fun a => by fin_cases a <;> rfl

/-- The three index maps in closed form: point t is (bi, wi) = (t / 72, t % 72); the input block is (bi, wi, 0), both
    output blocks are (wi, bi, 0). -/
theorem idx_facts0 : ∀ t : Fin cfg0.N,
    win0_0.index t (0 : Fin 3) = t.val / 72 ∧ win0_0.index t (1 : Fin 3) = t.val % 72 ∧ win0_0.index t (2 : Fin 3) = 0
    ∧ win0_1.index t (0 : Fin 3) = t.val % 72 ∧ win0_1.index t (1 : Fin 3) = t.val / 72 ∧ win0_1.index t (2 : Fin 3) = 0
    ∧ win0_2.index t (0 : Fin 3) = t.val % 72 ∧ win0_2.index t (1 : Fin 3) = t.val / 72 ∧ win0_2.index t (2 : Fin 3) = 0 :=
  (by decide +kernel : ∀ t : Fin grid0.N, _)

/-- Where entry `i` = (window, row, channel) of a statistics array reads x at time step `p` of its window. -/
abbrev timeOf (i : S72x4096x24.Idx) (p : Fin 24) : S4096x1728x24.Idx := fun a => match a with
  | ⟨0, _⟩ => ⟨(i 1).val, (i 1).isLt⟩
  | ⟨1, _⟩ => ⟨(i 0).val * 24 + p.val, by have h0 : (i 0).val < 72 := (i 0).isLt; have := p.isLt; show (i 0).val * 24 + p.val < 1728; omega⟩
  | ⟨2, _⟩ => ⟨(i 2).val, (i 2).isLt⟩

/-- The mean of each window of x. -/
def winMean (x : S4096x1728x24.Idx → EReal) : S72x4096x24.Idx → EReal := fun i =>
  Ideal.div (∑ p : Fin 24, x (timeOf i p)) lit24

/-- The square root of each window's mean squared deviation plus ε. -/
def winDev (x : S4096x1728x24.Idx → EReal) : S72x4096x24.Idx → EReal := fun i =>
  Ideal.sqrt (Ideal.div (∑ p : Fin 24, (x (timeOf i p) - winMean x i) * (x (timeOf i p) - winMean x i)) lit24 + litEps)

/-- A block whose time steps at (row, channel) are x's at entry `i`'s window has the window's mean there, -/
theorem meanBlock_eq (x : S4096x1728x24.Idx → EReal) (v : FVec Ideal S512x24x24 .f32) (y : S1x512x24.Idx) (i : S72x4096x24.Idx)
    (hv : ∀ p : Fin 24, v (ix3 ⟨(y 1).val, (y 1).isLt⟩ p ⟨(y 2).val, (y 2).isLt⟩) = x (timeOf i p)) :
    k0_pay2 (F := Ideal) v y = winMean x i := by
  obtain ⟨u, r, c', rfl⟩ : ∃ (u : Fin 1) (r : Fin 512) (c' : Fin 24), y = ix3 u r c' := ⟨y 0, y 1, y 2, eq_ix3 y⟩
  rw [pay2_apply]
  unfold blockMean winMean
  exact congrArg (Ideal.div · lit24) (Finset.sum_congr rfl fun p _ => hv p)

/-- and the window's deviation. -/
theorem devBlock_eq (x : S4096x1728x24.Idx → EReal) (v : FVec Ideal S512x24x24 .f32) (y : S1x512x24.Idx) (i : S72x4096x24.Idx)
    (hv : ∀ p : Fin 24, v (ix3 ⟨(y 1).val, (y 1).isLt⟩ p ⟨(y 2).val, (y 2).isLt⟩) = x (timeOf i p)) :
    k0_pay3 (F := Ideal) v y = winDev x i := by
  obtain ⟨u, r, c', rfl⟩ : ∃ (u : Fin 1) (r : Fin 512) (c' : Fin 24), y = ix3 u r c' := ⟨y 0, y 1, y 2, eq_ix3 y⟩
  rw [pay3_apply]
  have hm : blockMean v r c' = winMean x i := by
    unfold blockMean winMean
    exact congrArg (Ideal.div · lit24) (Finset.sum_congr rfl fun p _ => hv p)
  unfold blockDev winDev
  rw [hm]
  exact congrArg (fun s => Ideal.sqrt (Ideal.div s lit24 + litEps)) (Finset.sum_congr rfl fun p _ => by rw [hv p])

/-- The input block at point t, at (row, time step, channel) of the block, is x at the matching time step of the entry
    the output block holds at (row, channel). -/
theorem inBlock_at (c : Dev nD) (t : Fin cfg0.N)
    (j : S1x512x24.Idx) (p : Fin 24) (i : S72x4096x24.Idx)
    (hi0 : (i 0).val = t.val % 72 * 1 + 1 * (j 0).val) (hi1 : (i 1).val = t.val / 72 * 512 + 1 * (j 1).val)
    (hi2 : (i 2).val = 0 * 24 + 1 * (j 2).val) :
    (blockAt0 V c 0 t : S512x24x24.Idx → EReal) (ix3 ⟨(j 1).val, (j 1).isLt⟩ p ⟨(j 2).val, (j 2).isLt⟩) = V c main_arg0 (timeOf i p) := by
  obtain ⟨e00, e01, e02, -⟩ := idx_facts0 t
  have hj0 : (j 0).val < 1 := (j 0).isLt
  unfold blockAt0
  rw [View.read_apply]
  show V c main_arg0 _ = V c main_arg0 _
  congr 1
  funext a
  apply Fin.ext
  match a with
  | ⟨0, _⟩ => show win0_0.index t (0 : Fin 3) * 512 + 1 * (j 1).val = (i 1).val; omega
  | ⟨1, _⟩ => show win0_0.index t (1 : Fin 3) * 24 + 1 * p.val = (i 0).val * 24 + p.val; omega
  | ⟨2, _⟩ => show win0_0.index t (2 : Fin 3) * 24 + 1 * (j 2).val = (i 2).val; omega

/-- What point t writes back to the mean array is block t of `winMean` of x as the region finds it. -/
theorem flushedMean_eq (c : Dev nD) (t : Fin cfg0.N) :
    (dat0 V c).flushed 1 t = ((cfg0.win 1).blk t).view.read (Elt Ideal) (winMean (V c main_arg0)) := by
  show (cfg0.win 1).cut (grid0.coords t) ((dat0 V c).after 1 t) = _
  rw [after0_1]
  unfold statsMean
  rw [View.canon_unit_zero hz3]
  simp only [View.ld_unit_zero (S := S512x24x24) hz3]
  obtain ⟨-, -, -, e10, e11, e12, -⟩ := idx_facts0 t
  funext j
  show k0_pay2 (F := Ideal) (blockAt0 V c 0 t) j = winMean (V c main_arg0) (((cfg0.win 1).blk t).view.emb j)
  refine meanBlock_eq (V c main_arg0) (blockAt0 V c 0 t) j (((cfg0.win 1).blk t).view.emb j) (fun p => ?_)
  refine inBlock_at V c t j p _ ?_ ?_ ?_
  · show win0_1.index t (0 : Fin 3) * 1 + 1 * (j 0).val = _; rw [e10]
  · show win0_1.index t (1 : Fin 3) * 512 + 1 * (j 1).val = _; rw [e11]
  · show win0_1.index t (2 : Fin 3) * 24 + 1 * (j 2).val = _; rw [e12]

/-- What point t writes back to the deviation array is block t of `winDev`. -/
theorem flushedDev_eq (c : Dev nD) (t : Fin cfg0.N) :
    (dat0 V c).flushed 2 t = ((cfg0.win 2).blk t).view.read (Elt Ideal) (winDev (V c main_arg0)) := by
  show (cfg0.win 2).cut (grid0.coords t) ((dat0 V c).after 2 t) = _
  rw [after0_2]
  unfold statsStd
  rw [View.canon_unit_zero hz3]
  simp only [View.ld_unit_zero (S := S512x24x24) hz3]
  obtain ⟨-, -, -, -, -, -, e20, e21, e22⟩ := idx_facts0 t
  funext j
  show k0_pay3 (F := Ideal) (blockAt0 V c 0 t) j = winDev (V c main_arg0) (((cfg0.win 2).blk t).view.emb j)
  refine devBlock_eq (V c main_arg0) (blockAt0 V c 0 t) j (((cfg0.win 2).blk t).view.emb j) (fun p => ?_)
  refine inBlock_at V c t j p _ ?_ ?_ ?_
  · show win0_2.index t (0 : Fin 3) * 1 + 1 * (j 0).val = _; rw [e20]
  · show win0_2.index t (1 : Fin 3) * 512 + 1 * (j 1).val = _; rw [e21]
  · show win0_2.index t (2 : Fin 3) * 24 + 1 * (j 2).val = _; rw [e22]

/-- The point whose output block holds entry `i`: bi = row / 512, wi = window. -/
def pointOf (i : S72x4096x24.Idx) : Fin cfg0.N :=
  ⟨(i 1).val / 512 * 72 + (i 0).val, by
    have h0 : (i 0).val < 72 := (i 0).isLt
    have h1 : (i 1).val < 4096 := (i 1).isLt
    have hN : cfg0.N = 576 := N_0
    rw [hN]; omega⟩

/-- Every entry of the mean array is in the block of its point, which writes back. -/
theorem coverMean (i : S72x4096x24.Idx) :
    ∃ t : Fin cfg0.N, (cfg0.win 1).flush t = true ∧ i ∈ ((cfg0.win 1).blk t).view.set := by
  have h0 : (i 0).val < 72 := (i 0).isLt
  have h1 : (i 1).val < 4096 := (i 1).isLt
  have h2 : (i 2).val < 24 := (i 2).isLt
  refine ⟨pointOf i, flush0_1 _, ?_⟩
  obtain ⟨-, -, -, e10, e11, e12, -⟩ := idx_facts0 (pointOf i)
  have hv : (pointOf i).val = (i 1).val / 512 * 72 + (i 0).val := rfl
  show i ∈ ((View.whole main_v0_0).slice (win0_1.rect (pointOf i))).set
  rw [View.set_slice_whole, Rect.mem_set_unit]
  intro a
  match a with
  | ⟨0, _⟩ => show win0_1.index (pointOf i) (0 : Fin 3) * 1 ≤ (i 0).val ∧ (i 0).val < win0_1.index (pointOf i) (0 : Fin 3) * 1 + 1; omega
  | ⟨1, _⟩ => show win0_1.index (pointOf i) (1 : Fin 3) * 512 ≤ (i 1).val ∧ (i 1).val < win0_1.index (pointOf i) (1 : Fin 3) * 512 + 512; omega
  | ⟨2, _⟩ => show win0_1.index (pointOf i) (2 : Fin 3) * 24 ≤ (i 2).val ∧ (i 2).val < win0_1.index (pointOf i) (2 : Fin 3) * 24 + 24; omega

/-- The same for the deviation array. -/
theorem coverDev (i : S72x4096x24.Idx) :
    ∃ t : Fin cfg0.N, (cfg0.win 2).flush t = true ∧ i ∈ ((cfg0.win 2).blk t).view.set := by
  have h0 : (i 0).val < 72 := (i 0).isLt
  have h1 : (i 1).val < 4096 := (i 1).isLt
  have h2 : (i 2).val < 24 := (i 2).isLt
  refine ⟨pointOf i, flush0_2 _, ?_⟩
  obtain ⟨-, -, -, -, -, -, e20, e21, e22⟩ := idx_facts0 (pointOf i)
  have hv : (pointOf i).val = (i 1).val / 512 * 72 + (i 0).val := rfl
  show i ∈ ((View.whole main_v0_1).slice (win0_2.rect (pointOf i))).set
  rw [View.set_slice_whole, Rect.mem_set_unit]
  intro a
  match a with
  | ⟨0, _⟩ => show win0_2.index (pointOf i) (0 : Fin 3) * 1 ≤ (i 0).val ∧ (i 0).val < win0_2.index (pointOf i) (0 : Fin 3) * 1 + 1; omega
  | ⟨1, _⟩ => show win0_2.index (pointOf i) (1 : Fin 3) * 512 ≤ (i 1).val ∧ (i 1).val < win0_2.index (pointOf i) (1 : Fin 3) * 512 + 512; omega
  | ⟨2, _⟩ => show win0_2.index (pointOf i) (2 : Fin 3) * 24 ≤ (i 2).val ∧ (i 2).val < win0_2.index (pointOf i) (2 : Fin 3) * 24 + 24; omega

/-- The mean array after the region: the mean of every window of x. -/
theorem finalMean (c : Dev nD) : (dat0 V c).arrAt 1 cfg0.N = winMean (V c main_arg0) :=
  (dat0 V c).arrAt_eq_of_cover 1 (winMean (V c main_arg0)) (fun t _ => flushedMean_eq V c t) coverMean

/-- The deviation array after the region. -/
theorem finalDev (c : Dev nD) : (dat0 V c).arrAt 2 cfg0.N = winDev (V c main_arg0) :=
  (dat0 V c).arrAt_eq_of_cover 2 (winDev (V c main_arg0)) (fun t _ => flushedDev_eq V c t) coverDev

end Cert.KernelIdeal.Hand

end
-- ==== Proof.KILinearPay.lean ====
/-
  The linear body's stored value, index by index, on the extended reals.

  From a block f of feature rows (512 × 3504) and the two weight matrices W1 (3504 × 512) and W2 (512 × 2) the body
  stores, at (row r, output o),
      Σ_h ( Σ_k f(r, k) · W1(k, h) ) · W2(h, o).
  Each matrix product accumulates into the zero word, so it is the plain sum over the contracted axis; the
  narrowings to the 16-bit format before each product and between the two are the identity on the extended reals,
  and the cast of f to its own shape is the identity.
-/
import proofs.«109782_j79388175499469_2_alg».proof.Proof.Gen.KernelIdeal.Skeleton
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

/-! ## The two products as sums -/

theorem first_lhs0 (i : S512x512.Idx) (q : dot_S512x3504_S3504x512_S512x512_1_0_0_1_n_n.contr.Idx) : (dot_S512x3504_S3504x512_S512x512_1_0_0_1_n_n.lhsIdx i q 0).val = (i 0).val := by
  unfold DotDims.lhsIdx
  rw [dif_neg (show ¬(0 : Fin S512x3504.rank) ∈ dot_S512x3504_S3504x512_S512x512_1_0_0_1_n_n.lhsBatch by decide), dif_pos (show (0 : Fin S512x3504.rank) ∈ dot_S512x3504_S3504x512_S512x512_1_0_0_1_n_n.lhsNonContracting by decide)]
  rfl
theorem first_lhs1 (i : S512x512.Idx) (q : dot_S512x3504_S3504x512_S512x512_1_0_0_1_n_n.contr.Idx) : (dot_S512x3504_S3504x512_S512x512_1_0_0_1_n_n.lhsIdx i q 1).val = (q ⟨0, by decide⟩).val :=
  dot_S512x3504_S3504x512_S512x512_1_0_0_1_n_n.lhsIdx_val_of_single rfl i q
theorem first_rhs0 (i : S512x512.Idx) (q : dot_S512x3504_S3504x512_S512x512_1_0_0_1_n_n.contr.Idx) : (dot_S512x3504_S3504x512_S512x512_1_0_0_1_n_n.rhsIdx i q 0).val = (q ⟨0, by decide⟩).val :=
  dot_S512x3504_S3504x512_S512x512_1_0_0_1_n_n.rhsIdx_val_of_single rfl i q
theorem first_rhs1 (i : S512x512.Idx) (q : dot_S512x3504_S3504x512_S512x512_1_0_0_1_n_n.contr.Idx) : (dot_S512x3504_S3504x512_S512x512_1_0_0_1_n_n.rhsIdx i q 1).val = (i 1).val := by
  unfold DotDims.rhsIdx
  rw [dif_neg (show ¬(1 : Fin S3504x512.rank) ∈ dot_S512x3504_S3504x512_S512x512_1_0_0_1_n_n.rhsBatch by decide), dif_pos (show (1 : Fin S3504x512.rank) ∈ dot_S512x3504_S3504x512_S512x512_1_0_0_1_n_n.rhsNonContracting by decide)]
  rfl

/-- The product into a zero accumulator, at (row, column): the sum over the contracted axis. -/
theorem first_apply {φ₁ φ₂ : FTy} (l : FVec Ideal S512x3504 φ₁) (r : FVec Ideal S3504x512 φ₂) (a : Fin 512) (b : Fin 512) :
    FloatOps.matmul dot_S512x3504_S3504x512_S512x512_1_0_0_1_n_n none l r (constant S512x512 .f32 0x00000000#32) (ix2 a b) = ∑ k : Fin 3504, l (ix2 a k) * r (ix2 k b) := by
  refine (Ideal.matmul_constant_zero_apply dot_S512x3504_S3504x512_S512x512_1_0_0_1_n_n none l r (ix2 a b)).trans ?_
  rw [← Equiv.sum_comp (contrEquiv1 dot_S512x3504_S3504x512_S512x512_1_0_0_1_n_n 3504 rfl rfl).symm]
  refine Finset.sum_congr rfl fun k _ => ?_
  have hk := contrEquiv1_symm_val dot_S512x3504_S3504x512_S512x512_1_0_0_1_n_n 3504 rfl rfl k
  have el : dot_S512x3504_S3504x512_S512x512_1_0_0_1_n_n.lhsIdx (ix2 a b) ((contrEquiv1 dot_S512x3504_S3504x512_S512x512_1_0_0_1_n_n 3504 rfl rfl).symm k) = ix2 a k := funext fun x => Fin.ext (by
    match x with
    | ⟨0, _⟩ => exact first_lhs0 _ _
    | ⟨1, _⟩ => exact (first_lhs1 _ _).trans hk)
  have er : dot_S512x3504_S3504x512_S512x512_1_0_0_1_n_n.rhsIdx (ix2 a b) ((contrEquiv1 dot_S512x3504_S3504x512_S512x512_1_0_0_1_n_n 3504 rfl rfl).symm k) = ix2 k b := funext fun x => Fin.ext (by
    match x with
    | ⟨0, _⟩ => exact (first_rhs0 _ _).trans hk
    | ⟨1, _⟩ => exact first_rhs1 _ _)
  rw [el, er]

theorem second_lhs0 (i : S512x2.Idx) (q : dot_S512x512_S512x2_S512x2_1_0_0_1_n_n.contr.Idx) : (dot_S512x512_S512x2_S512x2_1_0_0_1_n_n.lhsIdx i q 0).val = (i 0).val := by
  unfold DotDims.lhsIdx
  rw [dif_neg (show ¬(0 : Fin S512x512.rank) ∈ dot_S512x512_S512x2_S512x2_1_0_0_1_n_n.lhsBatch by decide), dif_pos (show (0 : Fin S512x512.rank) ∈ dot_S512x512_S512x2_S512x2_1_0_0_1_n_n.lhsNonContracting by decide)]
  rfl
theorem second_lhs1 (i : S512x2.Idx) (q : dot_S512x512_S512x2_S512x2_1_0_0_1_n_n.contr.Idx) : (dot_S512x512_S512x2_S512x2_1_0_0_1_n_n.lhsIdx i q 1).val = (q ⟨0, by decide⟩).val :=
  dot_S512x512_S512x2_S512x2_1_0_0_1_n_n.lhsIdx_val_of_single rfl i q
theorem second_rhs0 (i : S512x2.Idx) (q : dot_S512x512_S512x2_S512x2_1_0_0_1_n_n.contr.Idx) : (dot_S512x512_S512x2_S512x2_1_0_0_1_n_n.rhsIdx i q 0).val = (q ⟨0, by decide⟩).val :=
  dot_S512x512_S512x2_S512x2_1_0_0_1_n_n.rhsIdx_val_of_single rfl i q
theorem second_rhs1 (i : S512x2.Idx) (q : dot_S512x512_S512x2_S512x2_1_0_0_1_n_n.contr.Idx) : (dot_S512x512_S512x2_S512x2_1_0_0_1_n_n.rhsIdx i q 1).val = (i 1).val := by
  unfold DotDims.rhsIdx
  rw [dif_neg (show ¬(1 : Fin S512x2.rank) ∈ dot_S512x512_S512x2_S512x2_1_0_0_1_n_n.rhsBatch by decide), dif_pos (show (1 : Fin S512x2.rank) ∈ dot_S512x512_S512x2_S512x2_1_0_0_1_n_n.rhsNonContracting by decide)]
  rfl

/-- The product into a zero accumulator, at (row, column): the sum over the contracted axis. -/
theorem second_apply {φ₁ φ₂ : FTy} (l : FVec Ideal S512x512 φ₁) (r : FVec Ideal S512x2 φ₂) (a : Fin 512) (b : Fin 2) :
    FloatOps.matmul dot_S512x512_S512x2_S512x2_1_0_0_1_n_n none l r (constant S512x2 .f32 0x00000000#32) (ix2 a b) = ∑ k : Fin 512, l (ix2 a k) * r (ix2 k b) := by
  refine (Ideal.matmul_constant_zero_apply dot_S512x512_S512x2_S512x2_1_0_0_1_n_n none l r (ix2 a b)).trans ?_
  rw [← Equiv.sum_comp (contrEquiv1 dot_S512x512_S512x2_S512x2_1_0_0_1_n_n 512 rfl rfl).symm]
  refine Finset.sum_congr rfl fun k _ => ?_
  have hk := contrEquiv1_symm_val dot_S512x512_S512x2_S512x2_1_0_0_1_n_n 512 rfl rfl k
  have el : dot_S512x512_S512x2_S512x2_1_0_0_1_n_n.lhsIdx (ix2 a b) ((contrEquiv1 dot_S512x512_S512x2_S512x2_1_0_0_1_n_n 512 rfl rfl).symm k) = ix2 a k := funext fun x => Fin.ext (by
    match x with
    | ⟨0, _⟩ => exact second_lhs0 _ _
    | ⟨1, _⟩ => exact (second_lhs1 _ _).trans hk)
  have er : dot_S512x512_S512x2_S512x2_1_0_0_1_n_n.rhsIdx (ix2 a b) ((contrEquiv1 dot_S512x512_S512x2_S512x2_1_0_0_1_n_n 512 rfl rfl).symm k) = ix2 k b := funext fun x => Fin.ext (by
    match x with
    | ⟨0, _⟩ => exact (second_rhs0 _ _).trans hk
    | ⟨1, _⟩ => exact second_rhs1 _ _)
  rw [el, er]

/-! ## The stored value -/

/-- What the body stores at (row, output): the feature row times W1, then times W2. -/
def blockLinear (f : FVec Ideal S512x3504 .f32) (w1 : FVec Ideal S3504x512 .f32) (w2 : FVec Ideal S512x2 .f32) (r : Fin 512) (o : Fin 2) : EReal :=
  ∑ h : Fin 512, (∑ k : Fin 3504, f (ix2 r k) * w1 (ix2 k h)) * w2 (ix2 h o)

theorem linear_apply (f : FVec Ideal S512x3504 .f32) (w1 : FVec Ideal S3504x512 .f32) (w2 : FVec Ideal S512x2 .f32) (r : Fin 512) (o : Fin 2) :
    k1_pay1 (F := Ideal) f w1 w2 (ix2 r o) = blockLinear f w1 w2 r o := by
  unfold k1_pay1 blockLinear
  simp only [matmul]
  refine (second_apply _ _ r o).trans ?_
  refine Finset.sum_congr rfl fun h _ => ?_
  show FloatOps.matmul dot_S512x3504_S3504x512_S512x512_1_0_0_1_n_n none
      (truncf (F := Ideal) .bf16 (shapeCast S512x3504 f shapeCasts_S512x3504_S512x3504) bitsLt_bf16_f32)
      (truncf (F := Ideal) .bf16 w1 bitsLt_bf16_f32) (constant S512x512 .f32 0x00000000#32) (ix2 r h) * w2 (ix2 h o) = _
  rw [first_apply, shapeCast_self]
  rfl

end Cert.KernelIdeal.Hand

end
-- ==== Proof.KILinearArrays.lean ====
/-
  What the linear region leaves in its output array, as one function of the feature matrix and the two weight
  matrices (extended reals).

  Grid point t stages feature rows 512·t … 512·t+511 and both weight matrices whole, and writes output rows
  512·t … 512·t+511. Entry (b, o) of the output is therefore
      Σ_h ( Σ_k feat(b, k) · W1(k, h) ) · W2(h, o),
  `linearAll` below: the staged feature row of the block is row b of the matrix (`idx_facts1`, decided over the
  eight points), the weight blocks are the matrices. The eight row blocks tile the output and every point writes back.
-/
import proofs.«109782_j79388175499469_2_alg».proof.Proof.KIRegion1
import proofs.«109782_j79388175499469_2_alg».proof.Proof.KILinearPay

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)
variable (V : (c : Dev nD) → (b : Ref sig .tc) → Buf (Elt Ideal) ((c : Thread nD τ).loc b))

theorem hz2 : (![0, 0] : Fin 2 → Nat) = fun _ => 0 := funext fun a => by fin_cases a <;> rfl

/-- The four index maps in closed form: the feature and output blocks are (t, 0), the weight blocks (0, 0). -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Column `k` of output entry `i`'s feature row; row `h` of its column of W2. -/
abbrev featAt (i : S4096x2.Idx) (k : Fin 3504) : S4096x3504.Idx := fun a => match a with
  | ⟨0, _⟩ => ⟨(i 0).val, (i 0).isLt⟩
  | ⟨1, _⟩ => ⟨k.val, k.isLt⟩
abbrev w2At (i : S4096x2.Idx) (h : Fin 512) : S512x2.Idx := fun a => match a with
  | ⟨0, _⟩ => ⟨h.val, h.isLt⟩
  | ⟨1, _⟩ => ⟨(i 1).val, (i 1).isLt⟩

/-- The feature matrix times W1, then times W2. -/
def linearAll (f : S4096x3504.Idx → EReal) (w1 : S3504x512.Idx → EReal) (w2 : S512x2.Idx → EReal) : S4096x2.Idx → EReal := fun i =>
  ∑ h : Fin 512, (∑ k : Fin 3504, f (featAt i k) * w1 (ix2 k h)) * w2 (w2At i h)

/-- A block whose feature row at the entry's row is the matrix's, and whose weights are the matrices', stores the
    entry of `linearAll`. -/
theorem linBlock_eq (f : S4096x3504.Idx → EReal) (w1 : S3504x512.Idx → EReal) (w2 : S512x2.Idx → EReal)
    (vf : FVec Ideal S512x3504 .f32) (vw1 : FVec Ideal S3504x512 .f32) (vw2 : FVec Ideal S512x2 .f32) (y : S512x2.Idx) (i : S4096x2.Idx)
    (hf : ∀ k : Fin 3504, vf (ix2 ⟨(y 0).val, (y 0).isLt⟩ k) = f (featAt i k))
    (hw1 : ∀ (k : Fin 3504) (h : Fin 512), vw1 (ix2 k h) = w1 (ix2 k h))
    (hw2 : ∀ h : Fin 512, vw2 (ix2 h ⟨(y 1).val, (y 1).isLt⟩) = w2 (w2At i h)) :
    k1_pay1 (F := Ideal) vf vw1 vw2 y = linearAll f w1 w2 i := by
  obtain ⟨r, o, rfl⟩ : ∃ (r : Fin 512) (o : Fin 2), y = ix2 r o := ⟨y 0, y 1, eq_ix2 y⟩
  rw [linear_apply]
  unfold blockLinear linearAll
  refine Finset.sum_congr rfl fun h _ => ?_
  rw [hw2 h]
  exact congrArg (· * w2 (w2At i h)) (Finset.sum_congr rfl fun k _ => by rw [hf k, hw1 k h])

/-- What point t writes back is block t of `linearAll` of the three arrays as the region finds them. -/
theorem flushedLinear_eq (c : Dev nD) (t : Fin cfg1.N) :
    (dat1 V c).flushed 3 t = ((cfg1.win 3).blk t).view.read (Elt Ideal) (linearAll (V c main_v6) (V c main_arg3) (V c main_arg4)) := by
  show (cfg1.win 3).cut (grid1.coords t) ((dat1 V c).after 3 t) = _
  rw [after1_3]
  unfold linearOut
  rw [View.canon_unit_zero hz2]
  simp only [View.ld_unit_zero (S := S512x3504) hz2, View.ld_unit_zero (S := S3504x512) hz2, View.ld_unit_zero (S := S512x2) hz2]
  obtain ⟨e00, e01, e10, e11, e20, e21, e30, e31⟩ := idx_facts1 t
  funext j
  show k1_pay1 (F := Ideal) (blockAt1 V c 0 t) (blockAt1 V c 1 t) (blockAt1 V c 2 t) j
      = linearAll (V c main_v6) (V c main_arg3) (V c main_arg4) (((cfg1.win 3).blk t).view.emb j)
  refine linBlock_eq (V c main_v6) (V c main_arg3) (V c main_arg4) (blockAt1 V c 0 t) (blockAt1 V c 1 t) (blockAt1 V c 2 t) j
    (((cfg1.win 3).blk t).view.emb j) (fun k => ?_) (fun k h => ?_) (fun h => ?_)
  · unfold blockAt1
    rw [View.read_apply]
    show V c main_v6 _ = V c main_v6 _
    congr 1
    funext a
    apply Fin.ext
    match a with
    | ⟨0, _⟩ => show win1_0.index t (0 : Fin 2) * 512 + 1 * (j 0).val = win1_3.index t (0 : Fin 2) * 512 + 1 * (j 0).val; omega
    | ⟨1, _⟩ => show win1_0.index t (1 : Fin 2) * 3504 + 1 * k.val = k.val; omega
  · unfold blockAt1
    rw [View.read_apply]
    show V c main_arg3 _ = V c main_arg3 _
    congr 1
    funext a
    apply Fin.ext
    match a with
    | ⟨0, _⟩ => show win1_1.index t (0 : Fin 2) * 3504 + 1 * k.val = k.val; omega
    | ⟨1, _⟩ => show win1_1.index t (1 : Fin 2) * 512 + 1 * h.val = h.val; omega
  · unfold blockAt1
    rw [View.read_apply]
    show V c main_arg4 _ = V c main_arg4 _
    congr 1
    funext a
    apply Fin.ext
    match a with
    | ⟨0, _⟩ => show win1_2.index t (0 : Fin 2) * 512 + 1 * h.val = h.val; omega
    | ⟨1, _⟩ => show win1_2.index t (1 : Fin 2) * 2 + 1 * (j 1).val = win1_3.index t (1 : Fin 2) * 2 + 1 * (j 1).val; omega

/-- The point whose output block holds entry `i`: its row's block of 512. -/
def pointOf1 (i : S4096x2.Idx) : Fin cfg1.N :=
  ⟨(i 0).val / 512, by
    have h0 : (i 0).val < 4096 := (i 0).isLt
    have hN : cfg1.N = 8 := N_1
    rw [hN]; omega⟩

/-- Every entry of the output is in the block of its point, which writes back. -/
theorem coverLinear (i : S4096x2.Idx) :
    ∃ t : Fin cfg1.N, (cfg1.win 3).flush t = true ∧ i ∈ ((cfg1.win 3).blk t).view.set := by
  have h0 : (i 0).val < 4096 := (i 0).isLt
  have h1 : (i 1).val < 2 := (i 1).isLt
  refine ⟨pointOf1 i, flush1_3 _, ?_⟩
  obtain ⟨-, -, -, -, -, -, e30, e31⟩ := idx_facts1 (pointOf1 i)
  have hv : (pointOf1 i).val = (i 0).val / 512 := rfl
  show i ∈ ((View.whole main_v7).slice (win1_3.rect (pointOf1 i))).set
  rw [View.set_slice_whole, Rect.mem_set_unit]
  intro a
  match a with
  | ⟨0, _⟩ => show win1_3.index (pointOf1 i) (0 : Fin 2) * 512 ≤ (i 0).val ∧ (i 0).val < win1_3.index (pointOf1 i) (0 : Fin 2) * 512 + 512; omega
  | ⟨1, _⟩ => show win1_3.index (pointOf1 i) (1 : Fin 2) * 2 ≤ (i 1).val ∧ (i 1).val < win1_3.index (pointOf1 i) (1 : Fin 2) * 2 + 2; omega

/-- The output array after the region. -/
theorem finalLinear (c : Dev nD) : (dat1 V c).arrAt 3 cfg1.N = linearAll (V c main_v6) (V c main_arg3) (V c main_arg4) :=
  (dat1 V c).arrAt_eq_of_cover 3 (linearAll (V c main_v6) (V c main_arg3) (V c main_arg4)) (fun t _ => flushedLinear_eq V c t) coverLinear

end Cert.KernelIdeal.Hand

end
-- ==== Proof.KIFeatBridge.lean ====
/-
  The kernel's feature matrix is the reference's.

  The reference reverses the time axis of x and cuts it into 72 windows of 24 steps, so its window j of row b is
  x(b, 1727 − 24·j − k, c), k = 0 … 23: the same 24 entries as the kernel's window 71 − j, met in the opposite order
  (k ↦ 23 − k). A finite sum on the extended reals does not depend on the order of its terms, so the reference's mean
  stage at (b, j, c) is the kernel's window mean at (71 − j, b, c), and with the means equal the deviations are too —
  no finiteness of x is used. The kernel reaches (b, j, c) from its window-major arrays by reversing the window axis
  and moving the batch axis to the front (`flipMove_apply`). Both programs then join [mean, deviation, stats1, stats2]
  along the middle axis — the kernel four pieces at once, the reference the first two and then the rest — which pick
  the same piece at every middle coordinate (`pick`), and flatten the last two axes.
-/
import proofs.«109782_j79388175499469_2_alg».proof.Proof.KIStatsArrays
import proofs.«109782_j79388175499469_2_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.ReferenceIdeal.Read
/-! ## Mirrored windows -/

/-- Entry (row, window, channel) of the batch-major statistics is the window-major array's at the mirrored window. -/
abbrev mirror (i : S4096x72x24.Idx) : S72x4096x24.Idx := fun a => match a with
  | ⟨0, _⟩ => ⟨71 - (i 1).val, by have h : (i 1).val < 72 := (i 1).isLt; show 71 - (i 1).val < 72; omega⟩
  | ⟨1, _⟩ => ⟨(i 0).val, (i 0).isLt⟩
  | ⟨2, _⟩ => ⟨(i 2).val, (i 2).isLt⟩

/-- Reversing the window axis and then moving the batch axis to the front reads the mirrored window. -/
theorem flipMove_apply (y : S72x4096x24.Idx → EReal) (i : S4096x72x24.Idx) :
    transpose S4096x72x24 [1, 0, 2] (Host.reverse [0] y) transposes_S72x4096x24_S4096x72x24_1_0_2 i = y (mirror i) := by
  refine (transpose_apply [1, 0, 2] (Host.reverse [0] y) transposes_S72x4096x24_S4096x72x24_1_0_2 i
    (fun a => match a with | ⟨0, _⟩ => ⟨(i 1).val, (i 1).isLt⟩ | ⟨1, _⟩ => ⟨(i 0).val, (i 0).isLt⟩ | ⟨2, _⟩ => ⟨(i 2).val, (i 2).isLt⟩)
    (fun b => match b with | ⟨0, _⟩ => rfl | ⟨1, _⟩ => rfl | ⟨2, _⟩ => rfl)).trans ?_
  unfold Host.reverse
  refine congrArg y (funext fun a => Fin.ext ?_)
  have h1 : (i 1).val < 72 := (i 1).isLt
  match a with
  | ⟨0, _⟩ =>
    show (Fin.rev (⟨(i 1).val, (i 1).isLt⟩ : Fin 72)).val = 71 - (i 1).val
    rw [Fin.val_rev]
    show 72 - ((i 1).val + 1) = 71 - (i 1).val
    omega
  | ⟨1, _⟩ => rfl
  | ⟨2, _⟩ => rfl

/-! ## The reference's stages are the kernel's window statistics -/

/-- Step 23 − p of the reference's window (b, j) is step p of x's window 71 − j. -/
theorem refWindow_apply (x : S4096x1728x24.Idx → EReal) (i : S4096x72x24.Idx) (p : Fin 24) :
    val_main_v1 (F := Ideal) x (idx_main_v2 i (Fin.rev p)) = x (timeOf (mirror i) p) := by
  rw [val_main_v1_apply]
  unfold val_main_v0 Host.reverse
  refine congrArg x (funext fun a => Fin.ext ?_)
  have h0 : (i 0).val < 4096 := (i 0).isLt
  have h1 : (i 1).val < 72 := (i 1).isLt
  have h2 : (i 2).val < 24 := (i 2).isLt
  have hp : p.val < 24 := p.isLt
  have hr : (Fin.rev p).val = 23 - p.val := by rw [Fin.val_rev]; omega
  match a with
  | ⟨0, _⟩ =>
    show ((((i 0).val * 72 + (i 1).val) * 24 + (Fin.rev p).val) * 24 + (i 2).val) / 41472 = (i 0).val
    omega
  | ⟨1, _⟩ =>
    show (Fin.rev (idx_main_v1 (idx_main_v2 i (Fin.rev p)) (1 : Fin 3))).val = (71 - (i 1).val) * 24 + p.val
    rw [Fin.val_rev]
    show 1728 - (((((i 0).val * 72 + (i 1).val) * 24 + (Fin.rev p).val) * 24 + (i 2).val) / 24 % 1728 + 1) = (71 - (i 1).val) * 24 + p.val
    omega
  | ⟨2, _⟩ =>
    show ((((i 0).val * 72 + (i 1).val) * 24 + (Fin.rev p).val) * 24 + (i 2).val) % 24 = (i 2).val
    omega

/-- The reference's mean stage is the mean of the mirrored window of x. -/
theorem mean_bridge (x : S4096x1728x24.Idx → EReal) (i : S4096x72x24.Idx) :
    winMean x (mirror i) = val_main_v4 (F := Ideal) x i := by
  rw [val_main_v4_apply, val_main_v2_apply, val_main_v3_apply, val_main_cst_0_apply, val_main_cst_apply]
  unfold winMean
  show Ideal.div _ lit24 = Ideal.div (Ideal.ofBits .f32 0x00000000#32 + _) lit24
  rw [Ideal.ofBits_zero_f32, zero_add]
  refine congrArg (Ideal.div · lit24) ?_
  exact Fintype.sum_equiv Fin.revPerm _ _ fun p => (refWindow_apply x i p).symm

/-- The reference's deviation stage is the deviation of the mirrored window of x. -/
theorem dev_bridge (x : S4096x1728x24.Idx → EReal) (i : S4096x72x24.Idx) :
    winDev x (mirror i) = val_main_v14 (F := Ideal) x i := by
  rw [val_main_v14_apply, val_main_v13_apply, val_main_v11_apply, val_main_v9_apply, val_main_v10_apply, val_main_v12_apply,
    val_main_cst_2_apply, val_main_cst_3_apply, val_main_cst_1_apply]
  unfold winDev
  show Ideal.sqrt (Ideal.div _ lit24 + litEps) = Ideal.sqrt (Ideal.div (Ideal.ofBits .f32 0x00000000#32 + _) lit24 + litEps)
  rw [Ideal.ofBits_zero_f32, zero_add]
  refine congrArg (fun s => Ideal.sqrt (Ideal.div s lit24 + litEps)) ?_
  refine Fintype.sum_equiv Fin.revPerm _ _ fun p => ?_
  have hm : val_main_v6 (F := Ideal) x (idx_main_v9 i (Fin.rev p)) = winMean x (mirror i) := by
    rw [val_main_v6_apply, val_main_v5_apply, mean_bridge]
    refine congrArg (val_main_v4 (F := Ideal) x) (funext fun a => Fin.ext ?_)
    match a with
    | ⟨0, _⟩ => rfl
    | ⟨1, _⟩ => rfl
    | ⟨2, _⟩ => rfl
  have hw : val_main_v1 (F := Ideal) x (idx_main_v9 i (Fin.rev p)) = x (timeOf (mirror i) p) := refWindow_apply x i p
  show _ = val_main_v8 (F := Ideal) x (idx_main_v9 i (Fin.rev p))
  rw [val_main_v8_apply, val_main_v7_apply, hm, hw]
  rfl

/-! ## Joining the four pieces -/

/-- The joined array at an index, by its middle coordinate: the mean for 0 … 71, the deviation for 72 … 143, then the
    two extra rows. -/
def pick (A B : S4096x72x24.Idx → EReal) (s1 s2 : S4096x1x24.Idx → EReal) (j : S4096x146x24.Idx) : EReal :=
  if h1 : (j 1).val < 72 then A (fun a => match a with | ⟨0, _⟩ => ⟨(j 0).val, (j 0).isLt⟩ | ⟨1, _⟩ => ⟨(j 1).val, h1⟩ | ⟨2, _⟩ => ⟨(j 2).val, (j 2).isLt⟩)
  else if h2 : (j 1).val < 144 then B (fun a => match a with | ⟨0, _⟩ => ⟨(j 0).val, (j 0).isLt⟩ | ⟨1, _⟩ => ⟨(j 1).val - 72, by show (j 1).val - 72 < 72; omega⟩ | ⟨2, _⟩ => ⟨(j 2).val, (j 2).isLt⟩)
  else if (j 1).val = 144 then s1 (fun a => match a with | ⟨0, _⟩ => ⟨(j 0).val, (j 0).isLt⟩ | ⟨1, _⟩ => ⟨0, Nat.one_pos⟩ | ⟨2, _⟩ => ⟨(j 2).val, (j 2).isLt⟩)
  else s2 (fun a => match a with | ⟨0, _⟩ => ⟨(j 0).val, (j 0).isLt⟩ | ⟨1, _⟩ => ⟨0, Nat.one_pos⟩ | ⟨2, _⟩ => ⟨(j 2).val, (j 2).isLt⟩)

/-- The four pieces joined at once. -/
theorem join4_apply (A B : S4096x72x24.Idx → EReal) (s1 s2 : S4096x1x24.Idx → EReal)
    (h : Shape.Concatenates [S4096x72x24, S4096x72x24, S4096x1x24, S4096x1x24] S4096x146x24 1) (j : S4096x146x24.Idx) :
    concatenate S4096x146x24 1 [⟨S4096x72x24, A⟩, ⟨S4096x72x24, B⟩, ⟨S4096x1x24, s1⟩, ⟨S4096x1x24, s2⟩] h j = pick A B s1 s2 j := by
  have hj : (j 1).val < 146 := (j 1).isLt
  unfold pick
  by_cases h1 : (j 1).val < 72
  · rw [dif_pos h1]
    exact concatenate_apply_piece 1 ([⟨S4096x72x24, A⟩, ⟨S4096x72x24, B⟩, ⟨S4096x1x24, s1⟩, ⟨S4096x1x24, s2⟩] : List ((s : Shape) × (s.Idx → EReal))) h j 0 (by show (0 : Nat) < 4; omega) S4096x72x24 A rfl rfl 0 rfl _ (fun b hb => match b, hb with | ⟨0, _⟩, _ => rfl | ⟨1, _⟩, hb => absurd rfl hb | ⟨2, _⟩, _ => rfl)
      (by show 0 + (j 1).val = (j 1).val; omega)
  · rw [dif_neg h1]
    by_cases h2 : (j 1).val < 144
    · rw [dif_pos h2]
      exact concatenate_apply_piece 1 ([⟨S4096x72x24, A⟩, ⟨S4096x72x24, B⟩, ⟨S4096x1x24, s1⟩, ⟨S4096x1x24, s2⟩] : List ((s : Shape) × (s.Idx → EReal))) h j 1 (by show (1 : Nat) < 4; omega) S4096x72x24 B rfl rfl 72 rfl _ (fun b hb => match b, hb with | ⟨0, _⟩, _ => rfl | ⟨1, _⟩, hb => absurd rfl hb | ⟨2, _⟩, _ => rfl)
        (by show 72 + ((j 1).val - 72) = (j 1).val; omega)
    · rw [dif_neg h2]
      by_cases h3 : (j 1).val = 144
      · rw [if_pos h3]
        exact concatenate_apply_piece 1 ([⟨S4096x72x24, A⟩, ⟨S4096x72x24, B⟩, ⟨S4096x1x24, s1⟩, ⟨S4096x1x24, s2⟩] : List ((s : Shape) × (s.Idx → EReal))) h j 2 (by show (2 : Nat) < 4; omega) S4096x1x24 s1 rfl rfl 144 rfl _ (fun b hb => match b, hb with | ⟨0, _⟩, _ => rfl | ⟨1, _⟩, hb => absurd rfl hb | ⟨2, _⟩, _ => rfl)
          (by show 144 + 0 = (j 1).val; omega)
      · rw [if_neg h3]
        exact concatenate_apply_piece 1 ([⟨S4096x72x24, A⟩, ⟨S4096x72x24, B⟩, ⟨S4096x1x24, s1⟩, ⟨S4096x1x24, s2⟩] : List ((s : Shape) × (s.Idx → EReal))) h j 3 (by show (3 : Nat) < 4; omega) S4096x1x24 s2 rfl rfl 145 rfl _ (fun b hb => match b, hb with | ⟨0, _⟩, _ => rfl | ⟨1, _⟩, hb => absurd rfl hb | ⟨2, _⟩, _ => rfl)
          (by show 145 + 0 = (j 1).val; omega)

/-- The first two pieces joined, then the rest. -/
theorem joinNested_apply (A B : S4096x72x24.Idx → EReal) (s1 s2 : S4096x1x24.Idx → EReal)
    (h2' : Shape.Concatenates [S4096x72x24, S4096x72x24] Cert.ReferenceIdeal.S4096x144x24 1)
    (h3' : Shape.Concatenates [Cert.ReferenceIdeal.S4096x144x24, S4096x1x24, S4096x1x24] S4096x146x24 1) (j : S4096x146x24.Idx) :
    concatenate S4096x146x24 1 [⟨Cert.ReferenceIdeal.S4096x144x24, concatenate Cert.ReferenceIdeal.S4096x144x24 1 [⟨S4096x72x24, A⟩, ⟨S4096x72x24, B⟩] h2'⟩,
        ⟨S4096x1x24, s1⟩, ⟨S4096x1x24, s2⟩] h3' j = pick A B s1 s2 j := by
  have hj : (j 1).val < 146 := (j 1).isLt
  unfold pick
  by_cases h1 : (j 1).val < 72
  · rw [dif_pos h1]
    refine (concatenate_apply_piece 1 ([⟨Cert.ReferenceIdeal.S4096x144x24, concatenate Cert.ReferenceIdeal.S4096x144x24 1 [⟨S4096x72x24, A⟩, ⟨S4096x72x24, B⟩] h2'⟩, ⟨S4096x1x24, s1⟩, ⟨S4096x1x24, s2⟩] : List ((s : Shape) × (s.Idx → EReal))) h3' j 0 (by show (0 : Nat) < 3; omega) Cert.ReferenceIdeal.S4096x144x24 _ rfl rfl 0 rfl
      (fun a => match a with | ⟨0, _⟩ => ⟨(j 0).val, (j 0).isLt⟩ | ⟨1, _⟩ => ⟨(j 1).val, by show (j 1).val < 144; omega⟩ | ⟨2, _⟩ => ⟨(j 2).val, (j 2).isLt⟩) (fun b hb => match b, hb with | ⟨0, _⟩, _ => rfl | ⟨1, _⟩, hb => absurd rfl hb | ⟨2, _⟩, _ => rfl)
      (by show 0 + (j 1).val = (j 1).val; omega)).trans ?_
    exact concatenate_apply_piece 1 ([⟨S4096x72x24, A⟩, ⟨S4096x72x24, B⟩] : List ((s : Shape) × (s.Idx → EReal))) h2' (fun a => match a with | ⟨0, _⟩ => ⟨(j 0).val, (j 0).isLt⟩ | ⟨1, _⟩ => ⟨(j 1).val, by show (j 1).val < 144; omega⟩ | ⟨2, _⟩ => ⟨(j 2).val, (j 2).isLt⟩) 0 (by show (0 : Nat) < 2; omega) S4096x72x24 A rfl rfl 0 rfl _ (fun b hb => match b, hb with | ⟨0, _⟩, _ => rfl | ⟨1, _⟩, hb => absurd rfl hb | ⟨2, _⟩, _ => rfl)
      (by show 0 + (j 1).val = (j 1).val; omega)
  · rw [dif_neg h1]
    by_cases h2 : (j 1).val < 144
    · rw [dif_pos h2]
      refine (concatenate_apply_piece 1 ([⟨Cert.ReferenceIdeal.S4096x144x24, concatenate Cert.ReferenceIdeal.S4096x144x24 1 [⟨S4096x72x24, A⟩, ⟨S4096x72x24, B⟩] h2'⟩, ⟨S4096x1x24, s1⟩, ⟨S4096x1x24, s2⟩] : List ((s : Shape) × (s.Idx → EReal))) h3' j 0 (by show (0 : Nat) < 3; omega) Cert.ReferenceIdeal.S4096x144x24 _ rfl rfl 0 rfl
        (fun a => match a with | ⟨0, _⟩ => ⟨(j 0).val, (j 0).isLt⟩ | ⟨1, _⟩ => ⟨(j 1).val, by show (j 1).val < 144; omega⟩ | ⟨2, _⟩ => ⟨(j 2).val, (j 2).isLt⟩) (fun b hb => match b, hb with | ⟨0, _⟩, _ => rfl | ⟨1, _⟩, hb => absurd rfl hb | ⟨2, _⟩, _ => rfl)
        (by show 0 + (j 1).val = (j 1).val; omega)).trans ?_
      exact concatenate_apply_piece 1 ([⟨S4096x72x24, A⟩, ⟨S4096x72x24, B⟩] : List ((s : Shape) × (s.Idx → EReal))) h2' (fun a => match a with | ⟨0, _⟩ => ⟨(j 0).val, (j 0).isLt⟩ | ⟨1, _⟩ => ⟨(j 1).val, by show (j 1).val < 144; omega⟩ | ⟨2, _⟩ => ⟨(j 2).val, (j 2).isLt⟩) 1 (by show (1 : Nat) < 2; omega) S4096x72x24 B rfl rfl 72 rfl _ (fun b hb => match b, hb with | ⟨0, _⟩, _ => rfl | ⟨1, _⟩, hb => absurd rfl hb | ⟨2, _⟩, _ => rfl)
        (by show 72 + ((j 1).val - 72) = (j 1).val; omega)
    · rw [dif_neg h2]
      by_cases h3 : (j 1).val = 144
      · rw [if_pos h3]
        exact concatenate_apply_piece 1 ([⟨Cert.ReferenceIdeal.S4096x144x24, concatenate Cert.ReferenceIdeal.S4096x144x24 1 [⟨S4096x72x24, A⟩, ⟨S4096x72x24, B⟩] h2'⟩, ⟨S4096x1x24, s1⟩, ⟨S4096x1x24, s2⟩] : List ((s : Shape) × (s.Idx → EReal))) h3' j 1 (by show (1 : Nat) < 3; omega) S4096x1x24 s1 rfl rfl 144 rfl _ (fun b hb => match b, hb with | ⟨0, _⟩, _ => rfl | ⟨1, _⟩, hb => absurd rfl hb | ⟨2, _⟩, _ => rfl)
          (by show 144 + 0 = (j 1).val; omega)
      · rw [if_neg h3]
        exact concatenate_apply_piece 1 ([⟨Cert.ReferenceIdeal.S4096x144x24, concatenate Cert.ReferenceIdeal.S4096x144x24 1 [⟨S4096x72x24, A⟩, ⟨S4096x72x24, B⟩] h2'⟩, ⟨S4096x1x24, s1⟩, ⟨S4096x1x24, s2⟩] : List ((s : Shape) × (s.Idx → EReal))) h3' j 2 (by show (2 : Nat) < 3; omega) S4096x1x24 s2 rfl rfl 145 rfl _ (fun b hb => match b, hb with | ⟨0, _⟩, _ => rfl | ⟨1, _⟩, hb => absurd rfl hb | ⟨2, _⟩, _ => rfl)
          (by show 145 + 0 = (j 1).val; omega)

/-! ## The feature matrices agree -/

/-- The kernel's feature matrix — the window statistics of x mirrored and moved batch-major, joined with the two extra
    rows and flattened — is the reference's feature stage. -/
theorem feat_bridge (x : S4096x1728x24.Idx → EReal) (s1 s2 : S4096x1x24.Idx → EReal) :
    shapeCast S4096x3504 (concatenate S4096x146x24 1
        [⟨S4096x72x24, transpose S4096x72x24 [1, 0, 2] (Host.reverse [0] (winMean x)) transposes_S72x4096x24_S4096x72x24_1_0_2⟩,
         ⟨S4096x72x24, transpose S4096x72x24 [1, 0, 2] (Host.reverse [0] (winDev x)) transposes_S72x4096x24_S4096x72x24_1_0_2⟩,
         ⟨S4096x1x24, s1⟩, ⟨S4096x1x24, s2⟩]
        concatenates_S4096x72x24_S4096x72x24_S4096x1x24_S4096x1x24_S4096x146x24_d1) shapeCasts_S4096x146x24_S4096x3504
      = val_main_v17 (F := Ideal) x s1 s2 := by
  unfold val_main_v17 val_main_v16 val_main_v15
  refine congrArg (fun z => shapeCast S4096x3504 z shapeCasts_S4096x146x24_S4096x3504) (funext fun j => ?_)
  rw [join4_apply, joinNested_apply]
  have eA : (transpose S4096x72x24 [1, 0, 2] (Host.reverse [0] (winMean x)) transposes_S72x4096x24_S4096x72x24_1_0_2 : S4096x72x24.Idx → EReal)
      = val_main_v4 (F := Ideal) x := funext fun i => (flipMove_apply (winMean x) i).trans (mean_bridge x i)
  have eB : (transpose S4096x72x24 [1, 0, 2] (Host.reverse [0] (winDev x)) transposes_S72x4096x24_S4096x72x24_1_0_2 : S4096x72x24.Idx → EReal)
      = val_main_v14 (F := Ideal) x := funext fun i => (flipMove_apply (winDev x) i).trans (dev_bridge x i)
  rw [eA, eB]

end Cert.KernelIdeal.Hand

end
-- ==== Proof.KIValue.lean ====
/-
  The idealized kernel program's result, as the reference's final stage of the launch arguments.

  After the statistics region the two statistics arrays hold the window means and deviations of x. The four host
  stretches reverse each array's window axis, move its batch axis to the front, join both with stats1 and stats2
  along the middle axis and flatten: each stretch is read over an arbitrary valuation (`after…`), and a buffer a
  stretch does not write is carried through it unchanged. So the linear region is entered with the reference's
  feature stage in its first window (`feat_eq`) and the two launch weight matrices in the others, and leaves
  feat · W1 · W2 — which is the reference's last stage, the two `dot_general`s read as the same double sum
  (`linear_bridge`).
-/
import proofs.«109782_j79388175499469_2_alg».proof.Proof.KIRun
import proofs.«109782_j79388175499469_2_alg».proof.Proof.KIStatsArrays
import proofs.«109782_j79388175499469_2_alg».proof.Proof.KILinearArrays
import proofs.«109782_j79388175499469_2_alg».proof.Proof.KIFeatBridge
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.StableHlo Cert.ReferenceIdeal.Read
/-! ## Each host stretch, over any contents -/

section Stretches
variable (W : Valuation τ sig (Elt Ideal))

theorem afterFlipMean : StableHlo.after hostOps1 W (Proc.devRef .tc main_v1) = Host.reverse [0] (W (Proc.devRef .tc main_v0_0)) := by
  after_results <;> rfl

theorem afterMoveMean : StableHlo.after hostOps1_1 W (Proc.devRef .tc main_v2)
    = transpose S4096x72x24 [1, 0, 2] (W (Proc.devRef .tc main_v1)) transposes_S72x4096x24_S4096x72x24_1_0_2 := by
  after_results <;> rfl

theorem afterFlipDev : StableHlo.after hostOps1_2 W (Proc.devRef .tc main_v3) = Host.reverse [0] (W (Proc.devRef .tc main_v0_1)) := by
  after_results <;> rfl

theorem afterJoin : StableHlo.after hostOps1_3 W (Proc.devRef .tc main_v6)
    = shapeCast S4096x3504 (concatenate S4096x146x24 1 [⟨S4096x72x24, W (Proc.devRef .tc main_v2)⟩,
        ⟨S4096x72x24, transpose S4096x72x24 [1, 0, 2] (W (Proc.devRef .tc main_v3)) transposes_S72x4096x24_S4096x72x24_1_0_2⟩,
        ⟨S4096x1x24, W (Proc.devRef .tc main_arg1)⟩, ⟨S4096x1x24, W (Proc.devRef .tc main_arg2)⟩]
        concatenates_S4096x72x24_S4096x72x24_S4096x1x24_S4096x1x24_S4096x146x24_d1) shapeCasts_S4096x146x24_S4096x3504 := by
  after_results <;> rfl

end Stretches

/-! ## What the linear region is entered with -/

variable (m : (ℓ : Loc nD τ sig) → Buf (Elt Ideal) ℓ)

/-- The statistics arrays after the first region. -/
theorem at1_mean (c : Dev nD) : at1 m c (Proc.devRef .tc main_v0_0) = winMean (m ((c : Thread nD τ).loc main_arg0)) :=
  (at1_arr m c 1).trans (finalMean (in0 m) c)
theorem at1_dev (c : Dev nD) : at1 m c (Proc.devRef .tc main_v0_1) = winDev (m ((c : Thread nD τ).loc main_arg0)) :=
  (at1_arr m c 2).trans (finalDev (in0 m) c)

/-- The mean, mirrored and batch-major, when the join reads it: the third stretch does not write it. -/
theorem at4_mean (c : Dev nD) : at4 m c (Proc.devRef .tc main_v2)
    = transpose S4096x72x24 [1, 0, 2] (Host.reverse [0] (winMean (m ((c : Thread nD τ).loc main_arg0)))) transposes_S72x4096x24_S4096x72x24_1_0_2 :=
  (StableHlo.after_of_writes_sub hostOps1_2 _ hostOps1_2_writes (r := main_v2) (by decide)).trans <|
    (afterMoveMean (at2 m c)).trans <|
    congrArg (fun y => transpose S4096x72x24 [1, 0, 2] y transposes_S72x4096x24_S4096x72x24_1_0_2)
      ((afterFlipMean (at1 m c)).trans (congrArg (Host.reverse [0]) (at1_mean m c)))

/-- The deviation, mirrored, when the join reads it: the first two stretches do not write the array it is made from. -/
theorem at4_dev (c : Dev nD) : at4 m c (Proc.devRef .tc main_v3) = Host.reverse [0] (winDev (m ((c : Thread nD τ).loc main_arg0))) :=
  (afterFlipDev (at3 m c)).trans <| congrArg (Host.reverse [0]) <|
    (StableHlo.after_of_writes_sub hostOps1_1 _ hostOps1_1_writes (r := main_v0_1) (by decide)).trans <|
    (StableHlo.after_of_writes_sub hostOps1 _ hostOps1_writes (r := main_v0_1) (by decide)).trans (at1_dev m c)

/-- The two extra feature rows when the join reads them: as launched. -/
theorem at4_of_arg (c : Dev nD) (r : Ref sig .tc) (h1 : r ∉ hostOps1_W) (h2 : r ∉ hostOps1_1_W) (h3 : r ∉ hostOps1_2_W)
    (h0 : ∀ w, Pipeline.arrRef spec0 w ≠ r) : at4 m c (Proc.devRef .tc r) = m ((c : Thread nD τ).loc r) :=
  (StableHlo.after_of_writes_sub hostOps1_2 _ hostOps1_2_writes h3).trans <|
    (StableHlo.after_of_writes_sub hostOps1_1 _ hostOps1_1_writes h2).trans <|
    (StableHlo.after_of_writes_sub hostOps1 _ hostOps1_writes h1).trans ((at1_of_ne m c r h0).trans rfl)

/-- The feature matrix the linear region is entered with is the reference's feature stage of x, stats1, stats2. -/
theorem feat_eq (c : Dev nD) : (at5 m c (Proc.devRef .tc main_v6) : S4096x3504.Idx → EReal)
    = val_main_v17 (F := Ideal) (m ((c : Thread nD τ).loc main_arg0)) (m ((c : Thread nD τ).loc main_arg1)) (m ((c : Thread nD τ).loc main_arg2)) := by
  refine (afterJoin (at4 m c)).trans ?_
  rw [at4_mean, at4_dev, at4_of_arg m c main_arg1 (by decide) (by decide) (by decide) (by decide),
    at4_of_arg m c main_arg2 (by decide) (by decide) (by decide) (by decide)]
  exact feat_bridge _ _ _

/-! ## The result -/

/-- The feature matrix times W1 then W2, as the kernel computes it, is the reference's two `dot_general`s. -/
theorem linear_bridge (x : S4096x1728x24.Idx → EReal) (s1 s2 : S4096x1x24.Idx → EReal) (w1 : S3504x512.Idx → EReal) (w2 : S512x2.Idx → EReal) :
    linearAll (val_main_v17 (F := Ideal) x s1 s2) w1 w2 = val_main_v19 (F := Ideal) x s1 s2 w1 w2 := by
  funext i
  rw [val_main_v19_apply]
  unfold linearAll
  refine Finset.sum_congr rfl fun h _ => ?_
  rw [val_main_v18_apply]
  have e1 : ∀ k : Fin 3504, lidx_main_v18 (lidx_main_v19 i h) k = featAt i k := fun k => funext fun a => Fin.ext (by
    match a with
    | ⟨0, _⟩ => rfl
    | ⟨1, _⟩ => rfl)
  have e2 : ∀ k : Fin 3504, ridx_main_v18 (lidx_main_v19 i h) k = ix2 k h := fun k => funext fun a => Fin.ext (by
    match a with
    | ⟨0, _⟩ => rfl
    | ⟨1, _⟩ => rfl)
  have e3 : ridx_main_v19 i h = w2At i h := funext fun a => Fin.ext (by
    match a with
    | ⟨0, _⟩ => rfl
    | ⟨1, _⟩ => rfl)
  rw [e3]
  exact congrArg (· * w2 (w2At i h)) (Finset.sum_congr rfl fun k _ => by rw [e1 k, e2 k])

/-- The result: the output array after the last item is the reference's final stage of the five launch arguments. -/
theorem result_eq (c : Dev nD) : at6 m c (Proc.devRef .tc main_v7)
    = val_main_v19 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (at6_arr m c 3).trans ((finalLinear (in1 m) c).trans ?_)
  show linearAll (at5 m c (Proc.devRef .tc main_v6)) (at5 m c (Proc.devRef .tc main_arg3)) (at5 m c (Proc.devRef .tc main_arg4)) = _
  rw [feat_eq, at5_main_arg3, at5_main_arg4]
  exact linear_bridge _ _ _ _ _

end Cert.KernelIdeal.Hand

end
-- ==== Proof.lean ====
/-
  Windowed statistics of a series followed by a two-layer linear map, against its reference, on the extended reals.

  x has shape 4096 × 1728 × 24 (row, time, channel). The kernel program cuts time into 72 windows of 24 steps and, in a
  first region over an 8 × 72 grid, computes per (window, row, channel) the mean of the window and the square root of
  its mean squared deviation plus ε; host operations then reverse the window order, make the arrays batch-major, join
  them with stats1 and stats2 into a 4096 × 146 × 24 array and flatten it to the 4096 × 3504 feature matrix; a second
  region over 8 row blocks multiplies the features by W1 and the product by W2. The reference reverses time first and
  takes the same statistics of windows of the reversed series, joins and flattens the same way, and applies two
  `dot_general`s.

  Why the two agree, at the ideal instance: window j of the reversed series holds the same 24 entries of x as window
  71 − j of x, in the opposite order, and a finite sum of extended reals does not depend on the order of its terms;
  the divisor 24, ε and the zero the sums start from are the same words on both sides; a product accumulated into a
  zero accumulator is the plain sum over the contracted axis, on both sides the same sum; a change of float format is
  the identity. No law used needs the inputs finite, so the precondition is never opened.

  The frames: each kernel program runs as its six items in order — region, four host stretches, region — the buffer
  contents followed from one boundary to the next; every argument is only ever read. The reference is a straight line
  of host operations, run by the generated run module. `preserves` has no conjunct: the ideal pass rewrote nothing.
-/
import proofs.«109782_j79388175499469_2_alg».proof.Defs
import proofs.«109782_j79388175499469_2_alg».proof.Proof.Gen.Kernel
import proofs.«109782_j79388175499469_2_alg».proof.Proof.Gen.KernelIdeal
import proofs.«109782_j79388175499469_2_alg».proof.Proof.Gen.ReferenceIdeal
import proofs.«109782_j79388175499469_2_alg».proof.Proof.Gen.ReferenceIdeal.Run
import proofs.«109782_j79388175499469_2_alg».proof.Proof.Gen.ReferenceIdeal.Read
import proofs.«109782_j79388175499469_2_alg».proof.Proof.Gen.Pre_finite_inputs
import proofs.«109782_j79388175499469_2_alg».proof.Proof.KRun
import proofs.«109782_j79388175499469_2_alg».proof.Proof.KIRun
import proofs.«109782_j79388175499469_2_alg».proof.Proof.KIValue
import Idealize.ShloMosaic.Adequacy
import Idealize.ShloMosaic.Init

noncomputable section

namespace Cert.Proof

open Idealize.ShloMosaic Idealize.ShloMosaic.TcCoe Idealize.SL.Sem

/-- The word-level kernel program runs to the end and leaves its five arguments as launched. -/
theorem frame_kernel : Cert.frame_Kernel := fun m ρ _ => Cert.Kernel.Hand.frame m ρ

/-- So does its idealization. -/
theorem frame_kernelIdeal : Cert.frame_KernelIdeal := fun m ρ _ => Cert.KernelIdeal.Hand.frame m ρ

/-- The reference is a line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the reference's final stage of those arguments:
    the kernel program by `result_eq`, the reference by its generated run. -/
theorem algebraic : Cert.algebraic_KernelIdeal_ReferenceIdeal := by
  intro m ρ m' ρ' _ hagree
  refine ⟨fun c => Cert.ReferenceIdeal.Read.val_main_v19 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun _ h c =>
      ⟨(h c _ (Cert.KernelIdeal.Hand.mem_uc Cert.KernelIdeal.main_v7 (by decide))).trans (Cert.KernelIdeal.Hand.result_eq m c),
       (h c _ (Cert.KernelIdeal.Hand.mem_uc Cert.KernelIdeal.main_arg0 (by decide))).trans (Cert.KernelIdeal.Hand.at6_main_arg0 m c),
       (h c _ (Cert.KernelIdeal.Hand.mem_uc Cert.KernelIdeal.main_arg1 (by decide))).trans (Cert.KernelIdeal.Hand.at6_main_arg1 m c),
       (h c _ (Cert.KernelIdeal.Hand.mem_uc Cert.KernelIdeal.main_arg2 (by decide))).trans (Cert.KernelIdeal.Hand.at6_main_arg2 m c),
       (h c _ (Cert.KernelIdeal.Hand.mem_uc Cert.KernelIdeal.main_arg3 (by decide))).trans (Cert.KernelIdeal.Hand.at6_main_arg3 m c),
       (h c _ (Cert.KernelIdeal.Hand.mem_uc Cert.KernelIdeal.main_arg4 (by decide))).trans (Cert.KernelIdeal.Hand.at6_main_arg4 m c)⟩)
      (Cert.KernelIdeal.Hand.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v19_eq, (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
